-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128x128 : Shape := ⟨4, ![4, 256, 128, 128]⟩
abbrev S_ : Shape := ⟨0, ![]⟩

class Facts : Prop where
  bcast_S_S4x256x128x128 : S_.BroadcastsInDim S4x256x128x128 (![] : Fin 0 → Fin S4x256x128x128.rank)
  reducesTo_S4x256x128x128_S_d0_1_2_3 : S4x256x128x128.ReducesTo [0, 1, 2, 3] S_
  h_S_ : 0 < S_.numel

variable [Facts]

def fn {F : FTy → Type} [FloatOps F] (main_arg0 : FVec F S4x256x128x128 .f32) (main_arg1 : FVec F S4x256x128x128 .f32) (main_arg2 : FVec F S4x256x128x128 .f32) : IVec S_ 1 :=
  let main_v0 : FVec F S4x256x128x128 .f32 := Host.absf main_arg0
  let main_cst : FVec F S_ .f32 := constant S_ .f32 0x7F800000#32
  let main_v1 : FVec F S4x256x128x128 .f32 := broadcastInDim S4x256x128x128 ![] bcast_S_S4x256x128x128 main_cst
  let main_v2 : IVec S4x256x128x128 1 := cmpf .olt main_v0 main_v1
  let main_c : IVec S_ 1 := constantI S_ 1 1#1
  let main_v3 : IVec S_ 1 := (fun x v => Host.reduce IntOp.andi x v reducesTo_S4x256x128x128_S_d0_1_2_3 h_S_) main_v2 main_c
  let main_v4 : FVec F S4x256x128x128 .f32 := Host.absf main_arg1
  let main_cst_0 : FVec F S_ .f32 := constant S_ .f32 0x7F800000#32
  let main_v5 : FVec F S4x256x128x128 .f32 := broadcastInDim S4x256x128x128 ![] bcast_S_S4x256x128x128 main_cst_0
  let main_v6 : IVec S4x256x128x128 1 := cmpf .olt main_v4 main_v5
  let main_c_1 : IVec S_ 1 := constantI S_ 1 1#1
  let main_v7 : IVec S_ 1 := (fun x v => Host.reduce IntOp.andi x v reducesTo_S4x256x128x128_S_d0_1_2_3 h_S_) main_v6 main_c_1
  let main_v8 : IVec S_ 1 := andi main_v3 main_v7
  let main_v9 : FVec F S4x256x128x128 .f32 := Host.absf main_arg2
  let main_cst_2 : FVec F S_ .f32 := constant S_ .f32 0x7F800000#32
  let main_v10 : FVec F S4x256x128x128 .f32 := broadcastInDim S4x256x128x128 ![] bcast_S_S4x256x128x128 main_cst_2
  let main_v11 : IVec S4x256x128x128 1 := cmpf .olt main_v9 main_v10
  let main_c_3 : IVec S_ 1 := constantI S_ 1 1#1
  let main_v12 : IVec S_ 1 := (fun x v => Host.reduce IntOp.andi x v reducesTo_S4x256x128x128_S_d0_1_2_3 h_S_) main_v11 main_c_3
  let main_v13 : IVec S_ 1 := andi main_v8 main_v12
  main_v13
-- ==== Kernel.lean ====
abbrev S4x256x128x128 : Shape := ⟨4, ![4, 256, 128, 128]⟩
abbrev S4x128x128x256 : Shape := ⟨4, ![4, 128, 128, 256]⟩
abbrev S1x128x128x128 : Shape := ⟨4, ![1, 128, 128, 128]⟩
abbrev S128x128x128 : Shape := ⟨3, ![128, 128, 128]⟩
abbrev S1x32x128x256 : Shape := ⟨4, ![1, 32, 128, 256]⟩
abbrev S32x128x256 : Shape := ⟨3, ![32, 128, 256]⟩
abbrev S32x128x128 : Shape := ⟨3, ![32, 128, 128]⟩
abbrev S32x128 : Shape := ⟨2, ![32, 128]⟩
abbrev S32x128x1 : Shape := ⟨3, ![32, 128, 1]⟩

abbrev nBuf : Space → Nat
  | .hbm => 8
  | .vmem => 20
  | .smem => 0
  | _ => 0

abbrev bufTy : (tb : Table) → Fin (tcTables nBuf tb) → BufTy
  | .hbm, ⟨0, _⟩ => ⟨S4x256x128x128, .f32⟩
  | .hbm, ⟨1, _⟩ => ⟨S4x256x128x128, .f32⟩
  | .hbm, ⟨2, _⟩ => ⟨S4x256x128x128, .f32⟩
  | .hbm, ⟨3, _⟩ => ⟨S4x128x128x256, .bf16⟩
  | .hbm, ⟨4, _⟩ => ⟨S4x128x128x256, .bf16⟩
  | .hbm, ⟨5, _⟩ => ⟨S4x128x128x256, .bf16⟩
  | .hbm, ⟨6, _⟩ => ⟨S4x128x128x256, .f32⟩
  | .hbm, ⟨7, _⟩ => ⟨S4x256x128x128, .f32⟩
  | .local _ .vmem, ⟨0, _⟩ => ⟨S1x128x128x128, .f32⟩
  | .local _ .vmem, ⟨1, _⟩ => ⟨S1x128x128x128, .f32⟩
  | .local _ .vmem, ⟨2, _⟩ => ⟨S1x128x128x128, .bf16⟩
  | .local _ .vmem, ⟨3, _⟩ => ⟨S1x128x128x128, .bf16⟩
  | .local _ .vmem, ⟨4, _⟩ => ⟨S1x128x128x128, .f32⟩
  | .local _ .vmem, ⟨5, _⟩ => ⟨S1x128x128x128, .f32⟩
  | .local _ .vmem, ⟨6, _⟩ => ⟨S1x128x128x128, .bf16⟩
  | .local _ .vmem, ⟨7, _⟩ => ⟨S1x128x128x128, .bf16⟩
  | .local _ .vmem, ⟨8, _⟩ => ⟨S1x128x128x128, .f32⟩
  | .local _ .vmem, ⟨9, _⟩ => ⟨S1x128x128x128, .f32⟩
  | .local _ .vmem, ⟨10, _⟩ => ⟨S1x128x128x128, .bf16⟩
  | .local _ .vmem, ⟨11, _⟩ => ⟨S1x128x128x128, .bf16⟩
  | .local _ .vmem, ⟨12, _⟩ => ⟨S1x32x128x256, .bf16⟩
  | .local _ .vmem, ⟨13, _⟩ => ⟨S1x32x128x256, .bf16⟩
  | .local _ .vmem, ⟨14, _⟩ => ⟨S1x32x128x256, .bf16⟩
  | .local _ .vmem, ⟨15, _⟩ => ⟨S1x32x128x256, .bf16⟩
  | .local _ .vmem, ⟨16, _⟩ => ⟨S1x32x128x256, .bf16⟩
  | .local _ .vmem, ⟨17, _⟩ => ⟨S1x32x128x256, .bf16⟩
  | .local _ .vmem, ⟨18, _⟩ => ⟨S1x32x128x256, .f32⟩
  | .local _ .vmem, ⟨19, _⟩ => ⟨S1x32x128x256, .f32⟩
  | _, _ => ⟨S4x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc3_sem2_0 : DmaSem sig := 16
abbrev cc3_sem2_1 : DmaSem sig := 17
abbrev cc3_sem3_0 : DmaSem sig := 18
abbrev cc3_sem3_1 : DmaSem sig := 19

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage1_0 : Fin 2 → Memref sig .tc .vmem S1x128x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x128x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![4, 2], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage2_0 : Fin 2 → Memref sig .tc .vmem S1x128x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x128x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![4, 4], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x32x128x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x32x128x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x32x128x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x32x128x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  transposes_S128x128x128_p2_1_0_S128x128x128 : S128x128x128.Transposes [2, 1, 0] S128x128x128
  bitsLt_bf16_f32 : FTy.bits .bf16 < FTy.bits .f32
  shapeCasts_S128x128x128_S1x128x128x128 : S128x128x128.ShapeCasts S1x128x128x128
  packedbf16_S1x128x128x128_S1x128x128x128_0_0_0_0 : (Rect.unit (s := S1x128x128x128) ![0, 0, 0, 0] S1x128x128x128.size inb_S1x128x128x128_S1x128x128x128_0_0_0_0).PackedRows (EltTy.packing .bf16)
  inb_S1x32x128x256_S1x32x128x256_0_0_0_0 : ∀ a, (![0, 0, 0, 0] : Fin 4 → Nat) a + S1x32x128x256.size a ≤ S1x32x128x256.size a
  h_S1x32x128x256 : 0 < S1x32x128x256.numel
  shapeCasts_S1x32x128x256_S32x128x256 : S1x32x128x256.ShapeCasts S32x128x256
  reduces_S32x128x128_S32x128 : S32x128x128.Reduces [2] S32x128
  shapeCasts_S32x128_S32x128x1 : S32x128.ShapeCasts S32x128x1
  broadcasts_S32x128x1_S32x128x128 : S32x128x1.Broadcasts S32x128x128
  shapeCasts_S32x128x256_S1x32x128x256 : S32x128x256.ShapeCasts S1x32x128x256
  shapeCasts_S4x128x128x256_S4x256x128x128 : S4x128x128x256.ShapeCasts S4x256x128x128
  dot_S32x128x256_S32x128x256_S32x128x128_2_2_1_1_0_0_wf : DotDims.WF S32x128x256 S32x128x256 S32x128x128 [2] [2] [1] [1] [0] [0]
  dot_S32x128x128_S32x128x256_S32x128x256_2_1_1_2_0_0_wf : DotDims.WF S32x128x128 S32x128x256 S32x128x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S4x256x128x128.size a
  hwx0_0 : ∀ i : grid0.Coords, EltTy.bits .f32 = 32 ∨ (Rect.block (s := S4x256x128x128) S1x128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128x128.size a ≤ S4x128x128x256.size a
  hwx0_1 : ∀ i : grid0.Coords, EltTy.bits .bf16 = 32 ∨ (Rect.block (s := S4x128x128x256) S1x128x128x128.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128x128.size a ≤ S4x256x128x128.size a
  hwx1_0 : ∀ i : grid1.Coords, EltTy.bits .f32 = 32 ∨ (Rect.block (s := S4x256x128x128) S1x128x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128x128.size a ≤ S4x128x128x256.size a
  hwx1_1 : ∀ i : grid1.Coords, EltTy.bits .bf16 = 32 ∨ (Rect.block (s := S4x128x128x256) S1x128x128x128.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x128x128.size a ≤ S4x256x128x128.size a
  hwx2_0 : ∀ i : grid2.Coords, EltTy.bits .f32 = 32 ∨ (Rect.block (s := S4x256x128x128) S1x128x128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x128x128.size a ≤ S4x128x128x256.size a
  hwx2_1 : ∀ i : grid2.Coords, EltTy.bits .bf16 = 32 ∨ (Rect.block (s := S4x128x128x256) S1x128x128x128.size (cc2_transform_1 i) (hinb2_1 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x32x128x256.size a ≤ S4x128x128x256.size a
  hwx3_0 : ∀ i : grid3.Coords, EltTy.bits .bf16 = 32 ∨ (Rect.block (s := S4x128x128x256) S1x32x128x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x32x128x256.size a ≤ S4x128x128x256.size a
  hwx3_1 : ∀ i : grid3.Coords, EltTy.bits .bf16 = 32 ∨ (Rect.block (s := S4x128x128x256) S1x32x128x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x32x128x256.size a ≤ S4x128x128x256.size a
  hwx3_2 : ∀ i : grid3.Coords, EltTy.bits .bf16 = 32 ∨ (Rect.block (s := S4x128x128x256) S1x32x128x256.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x32x128x256.size a ≤ S4x128x128x256.size a
  hwx3_3 : ∀ i : grid3.Coords, EltTy.bits .f32 = 32 ∨ (Rect.block (s := S4x128x128x256) S1x32x128x256.size (cc3_transform_3 i) (hinb3_3 i)).WholeWords (EltTy.packing .f32)

variable [Facts₀]

def dot_S32x128x256_S32x128x256_S32x128x128_2_2_1_1_0_0 : DotDims S32x128x256 S32x128x256 S32x128x128 where
  lhsContracting := [2]
  rhsContracting := [2]
  lhsNonContracting := [1]
  rhsNonContracting := [1]
  lhsBatch := [0]
  rhsBatch := [0]
  wf := dot_S32x128x256_S32x128x256_S32x128x128_2_2_1_1_0_0_wf
def dot_S32x128x128_S32x128x256_S32x128x256_2_1_1_2_0_0 : DotDims S32x128x128 S32x128x256 S32x128x256 where
  lhsContracting := [2]
  rhsContracting := [1]
  lhsNonContracting := [1]
  rhsNonContracting := [2]
  lhsBatch := [0]
  rhsBatch := [0]
  wf := dot_S32x128x128_S32x128x256_S32x128x256_2_1_1_2_0_0_wf

abbrev win0_0 : Pipeline.Window sig grid0 :=
  Pipeline.Window.ofSpec (Memref.whole main_arg0) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x128x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x128x128x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S1x128x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x128x128x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v0) S1x32x128x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S1x32x128x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1x32x128x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1x32x128x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4x256x128x128 : Shape := ⟨4, ![4, 256, 128, 128]⟩
abbrev S4x128x128x256 : Shape := ⟨4, ![4, 128, 128, 256]⟩
abbrev S4x128x128x128 : Shape := ⟨4, ![4, 128, 128, 128]⟩
abbrev S_ : Shape := ⟨0, ![]⟩
abbrev S4x128x128 : Shape := ⟨3, ![4, 128, 128]⟩
abbrev S4x128x128x1 : Shape := ⟨4, ![4, 128, 128, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x256x128x128, .f32⟩
  | .hbm, ⟨1, _⟩ => ⟨S4x256x128x128, .f32⟩
  | .hbm, ⟨2, _⟩ => ⟨S4x256x128x128, .f32⟩
  | .hbm, ⟨3, _⟩ => ⟨S4x128x128x256, .f32⟩
  | .hbm, ⟨4, _⟩ => ⟨S4x128x128x256, .f32⟩
  | .hbm, ⟨5, _⟩ => ⟨S4x128x128x256, .f32⟩
  | .hbm, ⟨6, _⟩ => ⟨S4x128x128x128, .f32⟩
  | .hbm, ⟨7, _⟩ => ⟨S_, .f32⟩
  | .hbm, ⟨8, _⟩ => ⟨S4x128x128x128, .f32⟩
  | .hbm, ⟨9, _⟩ => ⟨S4x128x128x128, .f32⟩
  | .hbm, ⟨10, _⟩ => ⟨S_, .f32⟩
  | .hbm, ⟨11, _⟩ => ⟨S4x128x128, .f32⟩
  | .hbm, ⟨12, _⟩ => ⟨S_, .f32⟩
  | .hbm, ⟨13, _⟩ => ⟨S4x128x128, .f32⟩
  | .hbm, ⟨14, _⟩ => ⟨S4x128x128, .f32⟩
  | .hbm, ⟨15, _⟩ => ⟨S4x128x128x1, .f32⟩
  | .hbm, ⟨16, _⟩ => ⟨S4x128x128x128, .f32⟩
  | .hbm, ⟨17, _⟩ => ⟨S4x128x128x128, .f32⟩
  | .hbm, ⟨18, _⟩ => ⟨S4x128x128x128, .f32⟩
  | .hbm, ⟨19, _⟩ => ⟨S_, .f32⟩
  | .hbm, ⟨20, _⟩ => ⟨S4x128x128, .f32⟩
  | .hbm, ⟨21, _⟩ => ⟨S4x128x128x1, .f32⟩
  | .hbm, ⟨22, _⟩ => ⟨S4x128x128x128, .f32⟩
  | .hbm, ⟨23, _⟩ => ⟨S4x128x128x128, .f32⟩
  | .hbm, ⟨24, _⟩ => ⟨S4x128x128x256, .f32⟩
  | .hbm, ⟨25, _⟩ => ⟨S4x256x128x128, .f32⟩
  | _, _ => ⟨S4x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  transposes_S4x256x128x128_S4x128x128x256_0_3_2_1 : S4x256x128x128.Transposes [0, 3, 2, 1] S4x128x128x256
  bcast_S_S4x128x128x128 : S_.BroadcastsInDim S4x128x128x128 (![] : Fin 0 → Fin S4x128x128x128.rank)
  reducesTo_S4x128x128x128_S4x128x128_d3 : S4x128x128x128.ReducesTo [3] S4x128x128
  h_S_ : 0 < S_.numel
  bcast_S_S4x128x128 : S_.BroadcastsInDim S4x128x128 (![] : Fin 0 → Fin S4x128x128.rank)
  bcast_S4x128x128_S4x128x128x1_0_1_2 : S4x128x128.BroadcastsInDim S4x128x128x1 (![0, 1, 2] : Fin 3 → Fin S4x128x128x1.rank)
  bcast_S4x128x128x1_S4x128x128x128_0_1_2_3 : S4x128x128x1.BroadcastsInDim S4x128x128x128 (![0, 1, 2, 3] : Fin 4 → Fin S4x128x128x128.rank)
  shapeCasts_S4x128x128x256_S4x256x128x128 : S4x128x128x256.ShapeCasts S4x256x128x128
  dot_S4x128x128x256_S4x128x128x256_S4x128x128x128_3_3_2_2_01_01_wf : DotDims.WF S4x128x128x256 S4x128x128x256 S4x128x128x128 [3] [3] [2] [2] [0, 1] [0, 1]
  dot_S4x128x128x128_S4x128x128x256_S4x128x128x256_3_2_2_3_01_01_wf : DotDims.WF S4x128x128x128 S4x128x128x256 S4x128x128x256 [3] [2] [2] [3] [0, 1] [0, 1]

variable [Facts₀]

def dot_S4x128x128x256_S4x128x128x256_S4x128x128x128_3_3_2_2_01_01 : DotDims S4x128x128x256 S4x128x128x256 S4x128x128x128 where
  lhsContracting := [3]
  rhsContracting := [3]
  lhsNonContracting := [2]
  rhsNonContracting := [2]
  lhsBatch := [0, 1]
  rhsBatch := [0, 1]
  wf := dot_S4x128x128x256_S4x128x128x256_S4x128x128x128_3_3_2_2_01_01_wf
def dot_S4x128x128x128_S4x128x128x256_S4x128x128x256_3_2_2_3_01_01 : DotDims S4x128x128x128 S4x128x128x256 S4x128x128x256 where
  lhsContracting := [3]
  rhsContracting := [2]
  lhsNonContracting := [2]
  rhsNonContracting := [3]
  lhsBatch := [0, 1]
  rhsBatch := [0, 1]
  wf := dot_S4x128x128x128_S4x128x128x256_S4x128x128x256_3_2_2_3_01_01_wf

class Facts : Prop extends Facts₀ where

variable [Facts]
-- ==== Proof.KernelRun.lean ====
/-
  The idealized kernel's run with its result array named.

  @main is four pipelined regions followed by one host reshape. Between segments the buffers of a core are a fold
  from the launch memory: each region leaves its arrays at what its write-backs fold to and every other buffer as
  it found it; the reshape then writes the result buffer. Every weakly fair execution ends with every unscoped
  buffer at the last stage of that fold, so in particular the result buffer holds the fold's value there, and the
  three argument buffers hold what they were launched with (no segment writes them).
-/
import proofs.«118682_j13134009991753_2_alg».proof.Defs
import proofs.«118682_j13134009991753_2_alg».proof.Proof.Gen.KernelIdeal
import proofs.«118682_j13134009991753_2_alg».proof.Proof.Gen.KernelIdeal.Skeleton
import proofs.«118682_j13134009991753_2_alg».proof.Proof.Gen.KernelIdeal.Launch
import proofs.«118682_j13134009991753_2_alg».proof.Proof.Gen.KernelIdeal.Points
import proofs.«118682_j13134009991753_2_alg».proof.Proof.Gen.KernelIdeal.Frame

set_option maxRecDepth 16384

noncomputable section

namespace Cert.KernelIdeal.AttnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last stage of
    the fold of the segments over the launch memory, and the argument buffers end as launched. -/
theorem run_fold : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.AttnRun

end
-- ==== Proof.PermuteBody.lean ====
/-
  What the re-laying body stores, entry by entry.

  The body loads a [1, 128, 128, 128] slab (one batch entry; 128 features, positions, columns), drops the unit axis,
  reverses the three axes, changes the float format (the identity on extended reals) and puts the unit axis back.
  So the stored slab at (0, w, h, c) is the loaded slab at (0, c, h, w).
-/
import proofs.«118682_j13134009991753_2_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.PermuteBody

open Cert.KernelIdeal Cert.KernelIdeal.Gen
open Idealize.ShloMosaic Idealize.ShloMosaic.ValueIdx

/-- The slab with its three inner axes reversed, read at an entry. -/
theorem reversed_apply (x : Vec Ideal S1x128x128x128 .f32) (z : Fin 1) (w h c : Fin 128) :
    (shapeCast S1x128x128x128 (truncf .bf16 (transpose S128x128x128 [2, 1, 0]
        (shapeCast S128x128x128 x shapeCasts_S1x128x128x128_S128x128x128) transposes_S128x128x128_p2_1_0_S128x128x128)
        bitsLt_bf16_f32) shapeCasts_S128x128x128_S1x128x128x128 : FVec Ideal S1x128x128x128 .bf16) (ix4 z w h c)
      = x (ix4 (0 : Fin 1) c h w) := by
  rw [shapeCast_abc_1abc_apply, truncf_apply,
    transpose_apply [2, 1, 0] _ transposes_S128x128x128_p2_1_0_S128x128x128 (ix3 w h c) (ix3 c h w)
      (fun b => match b with | ⟨0, _⟩ => rfl | ⟨1, _⟩ => rfl | ⟨2, _⟩ => rfl),
    shapeCast_1abc_abc_apply]

/-- The three re-laying bodies are this one term. -/
theorem payload0_apply (x : Vec Ideal S1x128x128x128 .f32) (z : Fin 1) (w h c : Fin 128) :
    k0_pay1 (F := Ideal) x (ix4 z w h c) = x (ix4 (0 : Fin 1) c h w) := reversed_apply x z w h c
theorem payload1_apply (x : Vec Ideal S1x128x128x128 .f32) (z : Fin 1) (w h c : Fin 128) :
    k1_pay1 (F := Ideal) x (ix4 z w h c) = x (ix4 (0 : Fin 1) c h w) := reversed_apply x z w h c
theorem payload2_apply (x : Vec Ideal S1x128x128x128 .f32) (z : Fin 1) (w h c : Fin 128) :
    k2_pay1 (F := Ideal) x (ix4 z w h c) = x (ix4 (0 : Fin 1) c h w) := reversed_apply x z w h c

end Cert.KernelIdeal.PermuteBody

end
-- ==== Proof.Spec.lean ====
/-
  Block-diagonal attention over the extended reals, as one function of its three argument arrays.

  The arguments are laid out (batch, feature, position, column). Attention runs per (batch, column) slice over
  the positions, with the features contracted, so both programs first bring each argument to the layout
  (batch, column, position, feature): the entry at (b, w, h, c) of the re-laid array is the entry at (b, c, h, w)
  of the argument. For a fixed (b, w) and query position p, the scores against the key positions j are
  (∑_c Q[b,w,p,c] · K[b,w,j,c]) · 2⁻⁴; the weights are exp(s_j − max_j s_j) divided by their sum over j; the
  output at feature c is ∑_j weight_j · V[b,w,j,c].
-/
import Idealize.ShloMosaic.PureOps.Ideal
import Idealize.ShloMosaic.PureOps.Ideal.Laws
import Idealize.ShloMosaic.Lib.ValueIdx

noncomputable section

open scoped BigOperators

namespace Cert.BlockAttention

open Idealize.ShloMosaic Idealize.ShloMosaic.ValueIdx

/-- The layout of the arguments: (batch, feature, position, column). -/
abbrev ArgShape : Shape := ⟨4, ![4, 256, 128, 128]⟩
/-- The layout attention runs in: (batch, column, position, feature). -/
abbrev RunShape : Shape := ⟨4, ![4, 128, 128, 256]⟩

/-- The seed of a row maximum: the float −∞. -/
def negInf : EReal := Ideal.ofBits .f32 0xFF800000#32
/-- The score scale 2⁻⁴ = 1/16, the reciprocal of the square root of the feature count 256. -/
def invScale : EReal := Ideal.ofBits .f32 0x3D800000#32

theorem negInf_eq_bot : negInf = ⊥ := by
  unfold negInf; simp [Ideal.ofBits, Ideal.ieee]

theorem invScale_eq : invScale = ((1 / 16 : ℝ) : EReal) := by
  unfold invScale; simp [Ideal.ofBits, Ideal.ieee, -EReal.coe_mul]; norm_num

/-- The float 16.0 denotes the real 16. -/
theorem sixteen_eq : Ideal.ofBits .f32 0x41800000#32 = ((16 : ℝ) : EReal) := by
  simp [Ideal.ofBits, Ideal.ieee, -EReal.coe_mul]; norm_num

/-- Dividing by 16 is multiplying by 1/16, on every extended real (16 is a nonzero real). -/
theorem div_sixteen (x : EReal) : Ideal.div x (Ideal.ofBits .f32 0x41800000#32) = x * invScale := by
  rw [sixteen_eq, invScale_eq, Ideal.div_coe (by norm_num : (16 : ℝ) ≠ 0)]

/-- −∞ is neutral for the maximum. -/
theorem max_negInf (x : EReal) : max negInf x = x := by
  rw [negInf_eq_bot]; exact max_eq_right bot_le

/-- An argument re-laid from (batch, feature, position, column) to (batch, column, position, feature). -/
def permute (A : ArgShape.Idx → EReal) : RunShape.Idx → EReal :=
  fun i => A (ix4 (n0 := 4) (n1 := 256) (n2 := 128) (n3 := 128) (i 0) (i 3) (i 2) (i 1))

theorem permute_apply (A : ArgShape.Idx → EReal) (b : Fin 4) (w h : Fin 128) (c : Fin 256) :
    permute A (ix4 b w h c) = A (ix4 b c h w) := rfl

/-- The maximum of a row of 128 scores, folded from −∞. -/
def rowMax (s : Fin 128 → EReal) : EReal := (Finset.univ : Finset (Fin 128)).fold max negInf s

/-- One query's scores against the 128 keys: the feature-wise products summed, scaled by 2⁻⁴. -/
def rowScores (q : Fin 256 → EReal) (K : Fin 128 → Fin 256 → EReal) : Fin 128 → EReal :=
  fun j => (∑ c : Fin 256, q c * K j c) * invScale

/-- The softmax weight of key j in a row of scores. -/
def softmaxWeight (s : Fin 128 → EReal) (j : Fin 128) : EReal :=
  Ideal.div (Ideal.exp (s j - rowMax s)) (∑ j' : Fin 128, Ideal.exp (s j' - rowMax s))

/-- One output entry: the values of one feature over the 128 keys, averaged with the query's softmax weights. -/
def rowAttention (q : Fin 256 → EReal) (K : Fin 128 → Fin 256 → EReal) (v : Fin 128 → EReal) : EReal :=
  ∑ j : Fin 128, softmaxWeight (rowScores q K) j * v j

/-- Attention per (batch, column) slice, on arrays in the layout (batch, column, position, feature). -/
def attention (Q K V : RunShape.Idx → EReal) : RunShape.Idx → EReal :=
  fun i => rowAttention
    (fun c => Q (ix4 (n0 := 4) (n1 := 128) (n2 := 128) (n3 := 256) (i 0) (i 1) (i 2) c))
    (fun j c => K (ix4 (n0 := 4) (n1 := 128) (n2 := 128) (n3 := 256) (i 0) (i 1) j c))
    (fun j => V (ix4 (n0 := 4) (n1 := 128) (n2 := 128) (n3 := 256) (i 0) (i 1) j (i 3)))

theorem attention_apply (Q K V : RunShape.Idx → EReal) (b : Fin 4) (w p : Fin 128) (c : Fin 256) :
    attention Q K V (ix4 b w p c)
      = rowAttention (fun c' => Q (ix4 b w p c')) (fun j c' => K (ix4 b w j c')) (fun j => V (ix4 b w j c)) := rfl

end Cert.BlockAttention

end
-- ==== Proof.RelayQuery.lean ====
/-
  What region 0 leaves in its output array: its argument re-laid.

  The grid is (batch, feature half): point (b, s) fetches the argument's slab [b, 128·s … 128·s + 127, all positions,
  all columns] and writes back the block [b, all columns, all positions, 128·s … 128·s + 127] of the output. The
  body reverses the slab's three inner axes, so what a point writes back is its block of the re-laid argument;
  the eight blocks tile the output array, which therefore ends as the re-laid argument whole.
-/
import proofs.«118682_j13134009991753_2_alg».proof.Proof.Gen.KernelIdeal.Frame
import proofs.«118682_j13134009991753_2_alg».proof.Proof.Gen.KernelIdeal.Points
import proofs.«118682_j13134009991753_2_alg».proof.Proof.PermuteBody
import proofs.«118682_j13134009991753_2_alg».proof.Proof.Spec
import Idealize.ShloMosaic.Lib.Pipeline.Value
import Idealize.ShloMosaic.Lib.ValueIdx

set_option maxRecDepth 16384

noncomputable section

namespace Cert.KernelIdeal.Relay0

open Cert.KernelIdeal Cert.KernelIdeal.Gen
open Idealize.ShloMosaic Idealize.ShloMosaic.TcCoe Idealize.SL.Sem
open Idealize.ShloMosaic.Pipeline (Dat)
open Idealize.ShloMosaic.ValueIdx Cert.BlockAttention

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- The two index maps over the grid: the input's batch and feature-half block indices are the output's batch
    and last-axis block indices, and every other block index is zero. -/
theorem index_facts : ∀ t : Fin cfg0.N,
    win0_0.index t (0 : Fin 4) = win0_1.index t (0 : Fin 4)
    ∧ win0_0.index t (1 : Fin 4) = win0_1.index t (3 : Fin 4)
    ∧ win0_0.index t (2 : Fin 4) = 0 ∧ win0_0.index t (3 : Fin 4) = 0
    ∧ win0_1.index t (1 : Fin 4) = 0 ∧ win0_1.index t (2 : Fin 4) = 0 :=
  (by decide +kernel : ∀ t : Fin grid0.N, _)

/-- Every (batch, feature half) is some point's output block. -/
theorem index_onto : ∀ (q0 : Fin 4) (q3 : Fin 2), ∃ t : Fin cfg0.N, win0_1.index t = ![q0.val, 0, 0, q3.val] :=
  (by decide +kernel : ∀ (q0 : Fin 4) (q3 : Fin 2), ∃ t : Fin grid0.N, win0_1.index t = ![q0.val, 0, 0, q3.val])

/-- What point `t` writes back is its block of the re-laid argument. -/
theorem flushed_eq (c : Dev nD) (t : Fin cfg0.N) :
    (dat0 V c).flushed 1 t = ((cfg0.win 1).blk t).view.read (Elt Ideal) (permute (V c main_arg0)) := by
  show (cfg0.win 1).cut (grid0.coords t) ((dat0 V c).after 1 t) = _
  rw [after0_1]
  unfold out0_1
  rw [View.canon_unit_zero zero_offsets]
  simp only [View.ld_unit_zero (S := S1x128x128x128) zero_offsets]
  obtain ⟨e0, e1, e2, e3, e4, e5⟩ := index_facts t
  refine funext fun (y : S1x128x128x128.Idx) => ?_
  obtain ⟨z, w, h, f, rfl⟩ : ∃ (z : Fin 1) (w h f : Fin 128), y = ix4 z w h f := ⟨y 0, y 1, y 2, y 3, eq_ix4 y⟩
  refine (PermuteBody.payload0_apply _ z w h f).trans ?_
  show V c main_arg0 (((cfg0.win 0).blk t).view.emb (ix4 (0 : Fin 1) f h w))
    = V c main_arg0 (ix4 (n0 := 4) (n1 := 256) (n2 := 128) (n3 := 128)
        ((((cfg0.win 1).blk t).view.emb (ix4 z w h f)) 0) ((((cfg0.win 1).blk t).view.emb (ix4 z w h f)) 3)
        ((((cfg0.win 1).blk t).view.emb (ix4 z w h f)) 2) ((((cfg0.win 1).blk t).view.emb (ix4 z w h f)) 1))
  refine congrArg (V c main_arg0) (funext fun a => Fin.ext ?_)
  have hz : z.val = 0 := by have := z.isLt; omega
  match a with
  | ⟨0, _⟩ => show win0_0.index t (0 : Fin 4) * 1 + 1 * 0 = win0_1.index t (0 : Fin 4) * 1 + 1 * z.val; omega
  | ⟨1, _⟩ => show win0_0.index t (1 : Fin 4) * 128 + 1 * f.val = win0_1.index t (3 : Fin 4) * 128 + 1 * f.val; omega
  | ⟨2, _⟩ => show win0_0.index t (2 : Fin 4) * 128 + 1 * h.val = win0_1.index t (2 : Fin 4) * 128 + 1 * h.val; omega
  | ⟨3, _⟩ => show win0_0.index t (3 : Fin 4) * 128 + 1 * w.val = win0_1.index t (1 : Fin 4) * 128 + 1 * w.val; omega

/-- An index of the output array is in point `t`'s block iff each coordinate is in the block's range. -/
theorem mem_block (t : Fin cfg0.N) (i : S4x128x128x256.Idx) :
    i ∈ ((cfg0.win 1).blk t).view.set ↔ ∀ a : Fin 4, win0_1.index t a * S1x128x128x128.size a ≤ (i a).val
      ∧ (i a).val < win0_1.index t a * S1x128x128x128.size a + S1x128x128x128.size a := by
  show i ∈ ((View.whole main_v0).slice (win0_1.rect t)).set ↔ _
  rw [View.set_slice_whole, Rect.mem_set_unit]
  exact Iff.rfl

/-- The blocks tile the output array: entry (b, w, h, f) is in the block of point (b, f / 128). -/
theorem covered (i : S4x128x128x256.Idx) :
    ∃ t : Fin cfg0.N, (cfg0.win 1).flush t = true ∧ i ∈ ((cfg0.win 1).blk t).view.set := by
  have h0 : (i 0).val < 4 := (i 0).isLt
  have h1 : (i 1).val < 128 := (i 1).isLt
  have h2 : (i 2).val < 128 := (i 2).isLt
  have h3 : (i 3).val < 256 := (i 3).isLt
  obtain ⟨t, ht⟩ := index_onto ⟨(i 0).val, h0⟩ ⟨(i 3).val / 128, by omega⟩
  have q0 : win0_1.index t (0 : Fin 4) = (i 0).val := congrFun ht 0
  have q1 : win0_1.index t (1 : Fin 4) = 0 := congrFun ht 1
  have q2 : win0_1.index t (2 : Fin 4) = 0 := congrFun ht 2
  have q3 : win0_1.index t (3 : Fin 4) = (i 3).val / 128 := congrFun ht 3
  refine ⟨t, flush0_1 t, ?_⟩
  rw [mem_block]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 128 ≤ (i 1).val ∧ (i 1).val < win0_1.index t (1 : Fin 4) * 128 + 128; omega
  | ⟨2, _⟩ => show win0_1.index t (2 : Fin 4) * 128 ≤ (i 2).val ∧ (i 2).val < win0_1.index t (2 : Fin 4) * 128 + 128; omega
  | ⟨3, _⟩ => show win0_1.index t (3 : Fin 4) * 128 ≤ (i 3).val ∧ (i 3).val < win0_1.index t (3 : Fin 4) * 128 + 128; omega

/-- THE OUTPUT ARRAY after the region: the argument re-laid. -/
theorem relaid (c : Dev nD) : (dat0 V c).arrAt 1 cfg0.N = permute (V c main_arg0) :=
  (dat0 V c).arrAt_eq_of_cover 1 (permute (V c main_arg0)) (fun t _ => flushed_eq V c t) covered

end Cert.KernelIdeal.Relay0

end
-- ==== Proof.RelayKey.lean ====
/-
  What region 1 leaves in its output array: its argument re-laid.

  The grid is (batch, feature half): point (b, s) fetches the argument's slab [b, 128·s … 128·s + 127, all positions,
  all columns] and writes back the block [b, all columns, all positions, 128·s … 128·s + 127] of the output. The
  body reverses the slab's three inner axes, so what a point writes back is its block of the re-laid argument;
  the eight blocks tile the output array, which therefore ends as the re-laid argument whole.
-/
import proofs.«118682_j13134009991753_2_alg».proof.Proof.Gen.KernelIdeal.Frame
import proofs.«118682_j13134009991753_2_alg».proof.Proof.Gen.KernelIdeal.Points
import proofs.«118682_j13134009991753_2_alg».proof.Proof.PermuteBody
import proofs.«118682_j13134009991753_2_alg».proof.Proof.Spec
import Idealize.ShloMosaic.Lib.Pipeline.Value
import Idealize.ShloMosaic.Lib.ValueIdx

set_option maxRecDepth 16384

noncomputable section

namespace Cert.KernelIdeal.Relay1

open Cert.KernelIdeal Cert.KernelIdeal.Gen
open Idealize.ShloMosaic Idealize.ShloMosaic.TcCoe Idealize.SL.Sem
open Idealize.ShloMosaic.Pipeline (Dat)
open Idealize.ShloMosaic.ValueIdx Cert.BlockAttention

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- The two index maps over the grid: the input's batch and feature-half block indices are the output's batch
    and last-axis block indices, and every other block index is zero. -/
theorem index_facts : ∀ t : Fin cfg1.N,
    win1_0.index t (0 : Fin 4) = win1_1.index t (0 : Fin 4)
    ∧ win1_0.index t (1 : Fin 4) = win1_1.index t (3 : Fin 4)
    ∧ win1_0.index t (2 : Fin 4) = 0 ∧ win1_0.index t (3 : Fin 4) = 0
    ∧ win1_1.index t (1 : Fin 4) = 0 ∧ win1_1.index t (2 : Fin 4) = 0 :=
  (by decide +kernel : ∀ t : Fin grid1.N, _)

/-- Every (batch, feature half) is some point's output block. -/
theorem index_onto : ∀ (q0 : Fin 4) (q3 : Fin 2), ∃ t : Fin cfg1.N, win1_1.index t = ![q0.val, 0, 0, q3.val] :=
  (by decide +kernel : ∀ (q0 : Fin 4) (q3 : Fin 2), ∃ t : Fin grid1.N, win1_1.index t = ![q0.val, 0, 0, q3.val])

/-- What point `t` writes back is its block of the re-laid argument. -/
theorem flushed_eq (c : Dev nD) (t : Fin cfg1.N) :
    (dat1 V c).flushed 1 t = ((cfg1.win 1).blk t).view.read (Elt Ideal) (permute (V c main_arg1)) := by
  show (cfg1.win 1).cut (grid1.coords t) ((dat1 V c).after 1 t) = _
  rw [after1_1]
  unfold out1_1
  rw [View.canon_unit_zero zero_offsets]
  simp only [View.ld_unit_zero (S := S1x128x128x128) zero_offsets]
  obtain ⟨e0, e1, e2, e3, e4, e5⟩ := index_facts t
  refine funext fun (y : S1x128x128x128.Idx) => ?_
  obtain ⟨z, w, h, f, rfl⟩ : ∃ (z : Fin 1) (w h f : Fin 128), y = ix4 z w h f := ⟨y 0, y 1, y 2, y 3, eq_ix4 y⟩
  refine (PermuteBody.payload1_apply _ z w h f).trans ?_
  show V c main_arg1 (((cfg1.win 0).blk t).view.emb (ix4 (0 : Fin 1) f h w))
    = V c main_arg1 (ix4 (n0 := 4) (n1 := 256) (n2 := 128) (n3 := 128)
        ((((cfg1.win 1).blk t).view.emb (ix4 z w h f)) 0) ((((cfg1.win 1).blk t).view.emb (ix4 z w h f)) 3)
        ((((cfg1.win 1).blk t).view.emb (ix4 z w h f)) 2) ((((cfg1.win 1).blk t).view.emb (ix4 z w h f)) 1))
  refine congrArg (V c main_arg1) (funext fun a => Fin.ext ?_)
  have hz : z.val = 0 := by have := z.isLt; omega
  match a with
  | ⟨0, _⟩ => show win1_0.index t (0 : Fin 4) * 1 + 1 * 0 = win1_1.index t (0 : Fin 4) * 1 + 1 * z.val; omega
  | ⟨1, _⟩ => show win1_0.index t (1 : Fin 4) * 128 + 1 * f.val = win1_1.index t (3 : Fin 4) * 128 + 1 * f.val; omega
  | ⟨2, _⟩ => show win1_0.index t (2 : Fin 4) * 128 + 1 * h.val = win1_1.index t (2 : Fin 4) * 128 + 1 * h.val; omega
  | ⟨3, _⟩ => show win1_0.index t (3 : Fin 4) * 128 + 1 * w.val = win1_1.index t (1 : Fin 4) * 128 + 1 * w.val; omega

/-- An index of the output array is in point `t`'s block iff each coordinate is in the block's range. -/
theorem mem_block (t : Fin cfg1.N) (i : S4x128x128x256.Idx) :
    i ∈ ((cfg1.win 1).blk t).view.set ↔ ∀ a : Fin 4, win1_1.index t a * S1x128x128x128.size a ≤ (i a).val
      ∧ (i a).val < win1_1.index t a * S1x128x128x128.size a + S1x128x128x128.size a := by
  show i ∈ ((View.whole main_v1).slice (win1_1.rect t)).set ↔ _
  rw [View.set_slice_whole, Rect.mem_set_unit]
  exact Iff.rfl

/-- The blocks tile the output array: entry (b, w, h, f) is in the block of point (b, f / 128). -/
theorem covered (i : S4x128x128x256.Idx) :
    ∃ t : Fin cfg1.N, (cfg1.win 1).flush t = true ∧ i ∈ ((cfg1.win 1).blk t).view.set := by
  have h0 : (i 0).val < 4 := (i 0).isLt
  have h1 : (i 1).val < 128 := (i 1).isLt
  have h2 : (i 2).val < 128 := (i 2).isLt
  have h3 : (i 3).val < 256 := (i 3).isLt
  obtain ⟨t, ht⟩ := index_onto ⟨(i 0).val, h0⟩ ⟨(i 3).val / 128, by omega⟩
  have q0 : win1_1.index t (0 : Fin 4) = (i 0).val := congrFun ht 0
  have q1 : win1_1.index t (1 : Fin 4) = 0 := congrFun ht 1
  have q2 : win1_1.index t (2 : Fin 4) = 0 := congrFun ht 2
  have q3 : win1_1.index t (3 : Fin 4) = (i 3).val / 128 := congrFun ht 3
  refine ⟨t, flush1_1 t, ?_⟩
  rw [mem_block]
  intro a
  match a with
  | ⟨0, _⟩ => show win1_1.index t (0 : Fin 4) * 1 ≤ (i 0).val ∧ (i 0).val < win1_1.index t (0 : Fin 4) * 1 + 1; omega
  | ⟨1, _⟩ => show win1_1.index t (1 : Fin 4) * 128 ≤ (i 1).val ∧ (i 1).val < win1_1.index t (1 : Fin 4) * 128 + 128; omega
  | ⟨2, _⟩ => show win1_1.index t (2 : Fin 4) * 128 ≤ (i 2).val ∧ (i 2).val < win1_1.index t (2 : Fin 4) * 128 + 128; omega
  | ⟨3, _⟩ => show win1_1.index t (3 : Fin 4) * 128 ≤ (i 3).val ∧ (i 3).val < win1_1.index t (3 : Fin 4) * 128 + 128; omega

/-- THE OUTPUT ARRAY after the region: the argument re-laid. -/
theorem relaid (c : Dev nD) : (dat1 V c).arrAt 1 cfg1.N = permute (V c main_arg1) :=
  (dat1 V c).arrAt_eq_of_cover 1 (permute (V c main_arg1)) (fun t _ => flushed_eq V c t) covered

end Cert.KernelIdeal.Relay1

end
-- ==== Proof.RelayValue.lean ====
/-
  What region 2 leaves in its output array: its argument re-laid.

  The grid is (batch, feature half): point (b, s) fetches the argument's slab [b, 128·s … 128·s + 127, all positions,
  all columns] and writes back the block [b, all columns, all positions, 128·s … 128·s + 127] of the output. The
  body reverses the slab's three inner axes, so what a point writes back is its block of the re-laid argument;
  the eight blocks tile the output array, which therefore ends as the re-laid argument whole.
-/
import proofs.«118682_j13134009991753_2_alg».proof.Proof.Gen.KernelIdeal.Frame
import proofs.«118682_j13134009991753_2_alg».proof.Proof.Gen.KernelIdeal.Points
import proofs.«118682_j13134009991753_2_alg».proof.Proof.PermuteBody
import proofs.«118682_j13134009991753_2_alg».proof.Proof.Spec
import Idealize.ShloMosaic.Lib.Pipeline.Value
import Idealize.ShloMosaic.Lib.ValueIdx

set_option maxRecDepth 16384

noncomputable section

namespace Cert.KernelIdeal.Relay2

open Cert.KernelIdeal Cert.KernelIdeal.Gen
open Idealize.ShloMosaic Idealize.ShloMosaic.TcCoe Idealize.SL.Sem
open Idealize.ShloMosaic.Pipeline (Dat)
open Idealize.ShloMosaic.ValueIdx Cert.BlockAttention

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- The two index maps over the grid: the input's batch and feature-half block indices are the output's batch
    and last-axis block indices, and every other block index is zero. -/
theorem index_facts : ∀ t : Fin cfg2.N,
    win2_0.index t (0 : Fin 4) = win2_1.index t (0 : Fin 4)
    ∧ win2_0.index t (1 : Fin 4) = win2_1.index t (3 : Fin 4)
    ∧ win2_0.index t (2 : Fin 4) = 0 ∧ win2_0.index t (3 : Fin 4) = 0
    ∧ win2_1.index t (1 : Fin 4) = 0 ∧ win2_1.index t (2 : Fin 4) = 0 :=
  (by decide +kernel : ∀ t : Fin grid2.N, _)

/-- Every (batch, feature half) is some point's output block. -/
theorem index_onto : ∀ (q0 : Fin 4) (q3 : Fin 2), ∃ t : Fin cfg2.N, win2_1.index t = ![q0.val, 0, 0, q3.val] :=
  (by decide +kernel : ∀ (q0 : Fin 4) (q3 : Fin 2), ∃ t : Fin grid2.N, win2_1.index t = ![q0.val, 0, 0, q3.val])

/-- What point `t` writes back is its block of the re-laid argument. -/
theorem flushed_eq (c : Dev nD) (t : Fin cfg2.N) :
    (dat2 V c).flushed 1 t = ((cfg2.win 1).blk t).view.read (Elt Ideal) (permute (V c main_arg2)) := by
  show (cfg2.win 1).cut (grid2.coords t) ((dat2 V c).after 1 t) = _
  rw [after2_1]
  unfold out2_1
  rw [View.canon_unit_zero zero_offsets]
  simp only [View.ld_unit_zero (S := S1x128x128x128) zero_offsets]
  obtain ⟨e0, e1, e2, e3, e4, e5⟩ := index_facts t
  refine funext fun (y : S1x128x128x128.Idx) => ?_
  obtain ⟨z, w, h, f, rfl⟩ : ∃ (z : Fin 1) (w h f : Fin 128), y = ix4 z w h f := ⟨y 0, y 1, y 2, y 3, eq_ix4 y⟩
  refine (PermuteBody.payload2_apply _ z w h f).trans ?_
  show V c main_arg2 (((cfg2.win 0).blk t).view.emb (ix4 (0 : Fin 1) f h w))
    = V c main_arg2 (ix4 (n0 := 4) (n1 := 256) (n2 := 128) (n3 := 128)
        ((((cfg2.win 1).blk t).view.emb (ix4 z w h f)) 0) ((((cfg2.win 1).blk t).view.emb (ix4 z w h f)) 3)
        ((((cfg2.win 1).blk t).view.emb (ix4 z w h f)) 2) ((((cfg2.win 1).blk t).view.emb (ix4 z w h f)) 1))
  refine congrArg (V c main_arg2) (funext fun a => Fin.ext ?_)
  have hz : z.val = 0 := by have := z.isLt; omega
  match a with
  | ⟨0, _⟩ => show win2_0.index t (0 : Fin 4) * 1 + 1 * 0 = win2_1.index t (0 : Fin 4) * 1 + 1 * z.val; omega
  | ⟨1, _⟩ => show win2_0.index t (1 : Fin 4) * 128 + 1 * f.val = win2_1.index t (3 : Fin 4) * 128 + 1 * f.val; omega
  | ⟨2, _⟩ => show win2_0.index t (2 : Fin 4) * 128 + 1 * h.val = win2_1.index t (2 : Fin 4) * 128 + 1 * h.val; omega
  | ⟨3, _⟩ => show win2_0.index t (3 : Fin 4) * 128 + 1 * w.val = win2_1.index t (1 : Fin 4) * 128 + 1 * w.val; omega

/-- An index of the output array is in point `t`'s block iff each coordinate is in the block's range. -/
theorem mem_block (t : Fin cfg2.N) (i : S4x128x128x256.Idx) :
    i ∈ ((cfg2.win 1).blk t).view.set ↔ ∀ a : Fin 4, win2_1.index t a * S1x128x128x128.size a ≤ (i a).val
      ∧ (i a).val < win2_1.index t a * S1x128x128x128.size a + S1x128x128x128.size a := by
  show i ∈ ((View.whole main_v2).slice (win2_1.rect t)).set ↔ _
  rw [View.set_slice_whole, Rect.mem_set_unit]
  exact Iff.rfl

/-- The blocks tile the output array: entry (b, w, h, f) is in the block of point (b, f / 128). -/
theorem covered (i : S4x128x128x256.Idx) :
    ∃ t : Fin cfg2.N, (cfg2.win 1).flush t = true ∧ i ∈ ((cfg2.win 1).blk t).view.set := by
  have h0 : (i 0).val < 4 := (i 0).isLt
  have h1 : (i 1).val < 128 := (i 1).isLt
  have h2 : (i 2).val < 128 := (i 2).isLt
  have h3 : (i 3).val < 256 := (i 3).isLt
  obtain ⟨t, ht⟩ := index_onto ⟨(i 0).val, h0⟩ ⟨(i 3).val / 128, by omega⟩
  have q0 : win2_1.index t (0 : Fin 4) = (i 0).val := congrFun ht 0
  have q1 : win2_1.index t (1 : Fin 4) = 0 := congrFun ht 1
  have q2 : win2_1.index t (2 : Fin 4) = 0 := congrFun ht 2
  have q3 : win2_1.index t (3 : Fin 4) = (i 3).val / 128 := congrFun ht 3
  refine ⟨t, flush2_1 t, ?_⟩
  rw [mem_block]
  intro a
  match a with
  | ⟨0, _⟩ => show win2_1.index t (0 : Fin 4) * 1 ≤ (i 0).val ∧ (i 0).val < win2_1.index t (0 : Fin 4) * 1 + 1; omega
  | ⟨1, _⟩ => show win2_1.index t (1 : Fin 4) * 128 ≤ (i 1).val ∧ (i 1).val < win2_1.index t (1 : Fin 4) * 128 + 128; omega
  | ⟨2, _⟩ => show win2_1.index t (2 : Fin 4) * 128 ≤ (i 2).val ∧ (i 2).val < win2_1.index t (2 : Fin 4) * 128 + 128; omega
  | ⟨3, _⟩ => show win2_1.index t (3 : Fin 4) * 128 ≤ (i 3).val ∧ (i 3).val < win2_1.index t (3 : Fin 4) * 128 + 128; omega

/-- THE OUTPUT ARRAY after the region: the argument re-laid. -/
theorem relaid (c : Dev nD) : (dat2 V c).arrAt 1 cfg2.N = permute (V c main_arg2) :=
  (dat2 V c).arrAt_eq_of_cover 1 (permute (V c main_arg2)) (fun t _ => flushed_eq V c t) covered

end Cert.KernelIdeal.Relay2

end
-- ==== Proof.AttnBody.lean ====
/-
  What the attention body stores, entry by entry.

  The body loads the query, key and value slabs of 32 (batch, column) slices, [1, 32, 128, 256] each. Per slice w
  and query position r: the scores against key position j are the feature-wise products of query row r and key
  row j summed over the 256 features, times 2⁻⁴; the row maximum (folded from −∞) is subtracted, the differences
  exponentiated, and each divided by their sum over j; the stored entry at feature c is the sum over j of that
  weight times the value slab's entry (j, c). A matrix product into a zero accumulator is the plain sum of
  products, and the float format changes are the identity on extended reals.
-/
import proofs.«118682_j13134009991753_2_alg».proof.Proof.Gen.KernelIdeal.Skeleton
import proofs.«118682_j13134009991753_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.AttnBody

open Cert.KernelIdeal Cert.KernelIdeal.Gen
open Idealize.ShloMosaic Idealize.ShloMosaic.ValueIdx Cert.BlockAttention

/-! ## Where the two contractions read their operands -/

theorem qk_lhs0 (i : S32x128x128.Idx) (q : dot_S32x128x256_S32x128x256_S32x128x128_2_2_1_1_0_0.contr.Idx) :
    (dot_S32x128x256_S32x128x256_S32x128x128_2_2_1_1_0_0.lhsIdx i q 0).val = (i 0).val := by
  unfold DotDims.lhsIdx
  rw [dif_pos (show (0 : Fin S32x128x256.rank) ∈ dot_S32x128x256_S32x128x256_S32x128x128_2_2_1_1_0_0.lhsBatch by decide)]
  rfl
theorem qk_lhs1 (i : S32x128x128.Idx) (q : dot_S32x128x256_S32x128x256_S32x128x128_2_2_1_1_0_0.contr.Idx) :
    (dot_S32x128x256_S32x128x256_S32x128x128_2_2_1_1_0_0.lhsIdx i q 1).val = (i 1).val := by
  unfold DotDims.lhsIdx
  rw [dif_neg (show ¬(1 : Fin S32x128x256.rank) ∈ dot_S32x128x256_S32x128x256_S32x128x128_2_2_1_1_0_0.lhsBatch by decide), dif_pos (show (1 : Fin S32x128x256.rank) ∈ dot_S32x128x256_S32x128x256_S32x128x128_2_2_1_1_0_0.lhsNonContracting by decide)]
  rfl
theorem qk_lhs2 (i : S32x128x128.Idx) (q : dot_S32x128x256_S32x128x256_S32x128x128_2_2_1_1_0_0.contr.Idx) :
    (dot_S32x128x256_S32x128x256_S32x128x128_2_2_1_1_0_0.lhsIdx i q 2).val = (q ⟨0, by decide⟩).val :=
  dot_S32x128x256_S32x128x256_S32x128x128_2_2_1_1_0_0.lhsIdx_val_of_single rfl i q
theorem qk_rhs0 (i : S32x128x128.Idx) (q : dot_S32x128x256_S32x128x256_S32x128x128_2_2_1_1_0_0.contr.Idx) :
    (dot_S32x128x256_S32x128x256_S32x128x128_2_2_1_1_0_0.rhsIdx i q 0).val = (i 0).val := by
  unfold DotDims.rhsIdx
  rw [dif_pos (show (0 : Fin S32x128x256.rank) ∈ dot_S32x128x256_S32x128x256_S32x128x128_2_2_1_1_0_0.rhsBatch by decide)]
  rfl
theorem qk_rhs1 (i : S32x128x128.Idx) (q : dot_S32x128x256_S32x128x256_S32x128x128_2_2_1_1_0_0.contr.Idx) :
    (dot_S32x128x256_S32x128x256_S32x128x128_2_2_1_1_0_0.rhsIdx i q 1).val = (i 2).val := by
  unfold DotDims.rhsIdx
  rw [dif_neg (show ¬(1 : Fin S32x128x256.rank) ∈ dot_S32x128x256_S32x128x256_S32x128x128_2_2_1_1_0_0.rhsBatch by decide), dif_pos (show (1 : Fin S32x128x256.rank) ∈ dot_S32x128x256_S32x128x256_S32x128x128_2_2_1_1_0_0.rhsNonContracting by decide)]
  rfl
theorem qk_rhs2 (i : S32x128x128.Idx) (q : dot_S32x128x256_S32x128x256_S32x128x128_2_2_1_1_0_0.contr.Idx) :
    (dot_S32x128x256_S32x128x256_S32x128x128_2_2_1_1_0_0.rhsIdx i q 2).val = (q ⟨0, by decide⟩).val :=
  dot_S32x128x256_S32x128x256_S32x128x128_2_2_1_1_0_0.rhsIdx_val_of_single rfl i q
theorem pv_lhs0 (i : S32x128x256.Idx) (q : dot_S32x128x128_S32x128x256_S32x128x256_2_1_1_2_0_0.contr.Idx) :
    (dot_S32x128x128_S32x128x256_S32x128x256_2_1_1_2_0_0.lhsIdx i q 0).val = (i 0).val := by
  unfold DotDims.lhsIdx
  rw [dif_pos (show (0 : Fin S32x128x128.rank) ∈ dot_S32x128x128_S32x128x256_S32x128x256_2_1_1_2_0_0.lhsBatch by decide)]
  rfl
theorem pv_lhs1 (i : S32x128x256.Idx) (q : dot_S32x128x128_S32x128x256_S32x128x256_2_1_1_2_0_0.contr.Idx) :
    (dot_S32x128x128_S32x128x256_S32x128x256_2_1_1_2_0_0.lhsIdx i q 1).val = (i 1).val := by
  unfold DotDims.lhsIdx
  rw [dif_neg (show ¬(1 : Fin S32x128x128.rank) ∈ dot_S32x128x128_S32x128x256_S32x128x256_2_1_1_2_0_0.lhsBatch by decide), dif_pos (show (1 : Fin S32x128x128.rank) ∈ dot_S32x128x128_S32x128x256_S32x128x256_2_1_1_2_0_0.lhsNonContracting by decide)]
  rfl
theorem pv_lhs2 (i : S32x128x256.Idx) (q : dot_S32x128x128_S32x128x256_S32x128x256_2_1_1_2_0_0.contr.Idx) :
    (dot_S32x128x128_S32x128x256_S32x128x256_2_1_1_2_0_0.lhsIdx i q 2).val = (q ⟨0, by decide⟩).val :=
  dot_S32x128x128_S32x128x256_S32x128x256_2_1_1_2_0_0.lhsIdx_val_of_single rfl i q
theorem pv_rhs0 (i : S32x128x256.Idx) (q : dot_S32x128x128_S32x128x256_S32x128x256_2_1_1_2_0_0.contr.Idx) :
    (dot_S32x128x128_S32x128x256_S32x128x256_2_1_1_2_0_0.rhsIdx i q 0).val = (i 0).val := by
  unfold DotDims.rhsIdx
  rw [dif_pos (show (0 : Fin S32x128x256.rank) ∈ dot_S32x128x128_S32x128x256_S32x128x256_2_1_1_2_0_0.rhsBatch by decide)]
  rfl
theorem pv_rhs1 (i : S32x128x256.Idx) (q : dot_S32x128x128_S32x128x256_S32x128x256_2_1_1_2_0_0.contr.Idx) :
    (dot_S32x128x128_S32x128x256_S32x128x256_2_1_1_2_0_0.rhsIdx i q 1).val = (q ⟨0, by decide⟩).val :=
  dot_S32x128x128_S32x128x256_S32x128x256_2_1_1_2_0_0.rhsIdx_val_of_single rfl i q
theorem pv_rhs2 (i : S32x128x256.Idx) (q : dot_S32x128x128_S32x128x256_S32x128x256_2_1_1_2_0_0.contr.Idx) :
    (dot_S32x128x128_S32x128x256_S32x128x256_2_1_1_2_0_0.rhsIdx i q 2).val = (i 2).val := by
  unfold DotDims.rhsIdx
  rw [dif_neg (show ¬(2 : Fin S32x128x256.rank) ∈ dot_S32x128x128_S32x128x256_S32x128x256_2_1_1_2_0_0.rhsBatch by decide), dif_pos (show (2 : Fin S32x128x256.rank) ∈ dot_S32x128x128_S32x128x256_S32x128x256_2_1_1_2_0_0.rhsNonContracting by decide)]
  rfl

/-! ## The non-pointwise operations at an entry -/

/-- Query rows against key rows: the products summed over the 256 features. -/
theorem qk_apply (a b : FVec Ideal S32x128x256 .bf16) (w : Fin 32) (r j : Fin 128) :
    matmul dot_S32x128x256_S32x128x256_S32x128x128_2_2_1_1_0_0 none a b (constant S32x128x128 .f32 0x00000000#32) (ix3 w r j)
      = ∑ c : Fin 256, a (ix3 w r c) * b (ix3 w j c) := by
  simp only [matmul]
  rw [Ideal.matmul_constant_zero_apply, ← Equiv.sum_comp (contrEquiv1 dot_S32x128x256_S32x128x256_S32x128x128_2_2_1_1_0_0 256 rfl rfl).symm]
  refine Finset.sum_congr rfl fun c _ => ?_
  have hc := contrEquiv1_symm_val dot_S32x128x256_S32x128x256_S32x128x128_2_2_1_1_0_0 256 rfl rfl c
  have el : dot_S32x128x256_S32x128x256_S32x128x128_2_2_1_1_0_0.lhsIdx (ix3 w r j) ((contrEquiv1 dot_S32x128x256_S32x128x256_S32x128x128_2_2_1_1_0_0 256 rfl rfl).symm c) = ix3 w r c := funext fun a => Fin.ext (by
    match a with
    | ⟨0, _⟩ => exact qk_lhs0 _ _
    | ⟨1, _⟩ => exact qk_lhs1 _ _
    | ⟨2, _⟩ => exact (qk_lhs2 _ _).trans hc)
  have er : dot_S32x128x256_S32x128x256_S32x128x128_2_2_1_1_0_0.rhsIdx (ix3 w r j) ((contrEquiv1 dot_S32x128x256_S32x128x256_S32x128x128_2_2_1_1_0_0 256 rfl rfl).symm c) = ix3 w j c := funext fun a => Fin.ext (by
    match a with
    | ⟨0, _⟩ => exact qk_rhs0 _ _
    | ⟨1, _⟩ => exact qk_rhs1 _ _
    | ⟨2, _⟩ => exact (qk_rhs2 _ _).trans hc)
  rw [el, er]

/-- Weights against value columns: the products summed over the 128 key positions. -/
theorem pv_apply (a : FVec Ideal S32x128x128 .bf16) (b : FVec Ideal S32x128x256 .bf16) (w : Fin 32) (r : Fin 128) (c : Fin 256) :
    matmul dot_S32x128x128_S32x128x256_S32x128x256_2_1_1_2_0_0 none a b (constant S32x128x256 .f32 0x00000000#32) (ix3 w r c)
      = ∑ j : Fin 128, a (ix3 w r j) * b (ix3 w j c) := by
  simp only [matmul]
  rw [Ideal.matmul_constant_zero_apply, ← Equiv.sum_comp (contrEquiv1 dot_S32x128x128_S32x128x256_S32x128x256_2_1_1_2_0_0 128 rfl rfl).symm]
  refine Finset.sum_congr rfl fun j _ => ?_
  have hj := contrEquiv1_symm_val dot_S32x128x128_S32x128x256_S32x128x256_2_1_1_2_0_0 128 rfl rfl j
  have el : dot_S32x128x128_S32x128x256_S32x128x256_2_1_1_2_0_0.lhsIdx (ix3 w r c) ((contrEquiv1 dot_S32x128x128_S32x128x256_S32x128x256_2_1_1_2_0_0 128 rfl rfl).symm j) = ix3 w r j := funext fun a => Fin.ext (by
    match a with
    | ⟨0, _⟩ => exact pv_lhs0 _ _
    | ⟨1, _⟩ => exact pv_lhs1 _ _
    | ⟨2, _⟩ => exact (pv_lhs2 _ _).trans hj)
  have er : dot_S32x128x128_S32x128x256_S32x128x256_2_1_1_2_0_0.rhsIdx (ix3 w r c) ((contrEquiv1 dot_S32x128x128_S32x128x256_S32x128x256_2_1_1_2_0_0 128 rfl rfl).symm j) = ix3 w j c := funext fun a => Fin.ext (by
    match a with
    | ⟨0, _⟩ => exact pv_rhs0 _ _
    | ⟨1, _⟩ => exact (pv_rhs1 _ _).trans hj
    | ⟨2, _⟩ => exact pv_rhs2 _ _)
  rw [el, er]

theorem keyLift (w : Fin 32) (r j : Fin 128) : reduces_S32x128x128_S32x128.lift (ix2 w r) j = ix3 w r j :=
  funext fun a => Fin.ext (by match a with | ⟨0, _⟩ => rfl | ⟨1, _⟩ => rfl | ⟨2, _⟩ => rfl)

/-- A maximum along the key axis, folded from −∞. -/
theorem rowmax_apply (x : FVec Ideal S32x128x128 .f32) (w : Fin 32) (r : Fin 128) :
    multiReduction .maximumf [2] S32x128 x 0xFF800000#32 reduces_S32x128x128_S32x128 (.inl rfl) rfl (ix2 w r)
      = rowMax (fun j => x (ix3 w r j)) := by
  refine (Ideal.multiReduction_maximumf_single x 0xFF800000#32 reduces_S32x128x128_S32x128 (.inl rfl) rfl (ix2 w r)).trans ?_
  have hrow : (x ∘ reduces_S32x128x128_S32x128.lift (ix2 w r)) = fun j : Fin 128 => x (ix3 w r j) :=
    funext fun j => congrArg x (keyLift w r j)
  rw [hrow]
  rfl

/-- A sum along the key axis. -/
theorem rowsum_apply (x : FVec Ideal S32x128x128 .f32) (w : Fin 32) (r : Fin 128) :
    multiReduction .add [2] S32x128 x 0x00000000#32 reduces_S32x128x128_S32x128 (.inl rfl) rfl (ix2 w r)
      = ∑ j : Fin 128, x (ix3 w r j) := by
  refine (Ideal.multiReduction_add_single x 0x00000000#32 reduces_S32x128x128_S32x128 (.inl rfl) rfl (ix2 w r)).trans ?_
  exact Finset.sum_congr rfl fun j _ => congrArg x (keyLift w r j)

/-- A per-row value spread back along the key axis. -/
theorem spread_apply (x : FVec Ideal S32x128 .f32) (w : Fin 32) (r j : Fin 128) :
    broadcastTo S32x128x128 (shapeCast S32x128x1 x shapeCasts_S32x128_S32x128x1) broadcasts_S32x128x1_S32x128x128 (ix3 w r j)
      = x (ix2 w r) := by
  rw [broadcastTo_apply _ broadcasts_S32x128x1_S32x128x128 (ix3 w r j) (ix3 w r (0 : Fin 1)) (fun a => match a with
    | ⟨0, _⟩ => by show w.val = if (32 : Nat) = 1 then 0 else w.val; rw [if_neg (by decide)]
    | ⟨1, _⟩ => by show r.val = if (128 : Nat) = 1 then 0 else r.val; rw [if_neg (by decide)]
    | ⟨2, _⟩ => by show 0 = if (1 : Nat) = 1 then 0 else j.val; rw [if_pos rfl])]
  exact shapeCast_apply x shapeCasts_S32x128_S32x128x1 (ix3 w r (0 : Fin 1)) (ix2 w r) (by
    rw [Shape.rowMajor_val_two, Shape.rowMajor_val_three]
    show w.val * 128 + r.val = (w.val * 128 + r.val) * 1 + 0
    omega)

/-! ## The body in four stages -/

/-- The scaled scores of the 32 slices. -/
def scoresOf (q k : FVec Ideal S1x32x128x256 .bf16) : FVec Ideal S32x128x128 .f32 :=
  mulf (matmul dot_S32x128x256_S32x128x256_S32x128x128_2_2_1_1_0_0 none
      (shapeCast S32x128x256 q shapeCasts_S1x32x128x256_S32x128x256)
      (shapeCast S32x128x256 k shapeCasts_S1x32x128x256_S32x128x256)
      (constant S32x128x128 .f32 0x00000000#32))
    (broadcast S32x128x128 (Scalar.ofBits .f32 0x3D800000#32))

theorem scoresOf_apply (q k : FVec Ideal S1x32x128x256 .bf16) (w : Fin 32) (r j : Fin 128) :
    scoresOf q k (ix3 w r j)
      = rowScores (fun c => q (ix4 (0 : Fin 1) w r c)) (fun j' c => k (ix4 (0 : Fin 1) w j' c)) j := by
  unfold scoresOf rowScores
  rw [mulf_apply, qk_apply, broadcast_apply]
  refine congrArg₂ (· * ·) (Finset.sum_congr rfl fun c _ => ?_) rfl
  rw [shapeCast_1abc_abc_apply, shapeCast_1abc_abc_apply]

/-- Scores shifted by their row maximum and exponentiated. -/
def expsOf (s : FVec Ideal S32x128x128 .f32) : FVec Ideal S32x128x128 .f32 :=
  exp (subf s (broadcastTo S32x128x128 (shapeCast S32x128x1
    (multiReduction .maximumf [2] S32x128 s 0xFF800000#32 reduces_S32x128x128_S32x128 (.inl rfl) rfl)
    shapeCasts_S32x128_S32x128x1) broadcasts_S32x128x1_S32x128x128))

theorem expsOf_apply (s : FVec Ideal S32x128x128 .f32) (w : Fin 32) (r j : Fin 128) :
    expsOf s (ix3 w r j) = Ideal.exp (s (ix3 w r j) - rowMax (fun j' => s (ix3 w r j'))) := by
  unfold expsOf
  show Ideal.exp (subf s _ (ix3 w r j)) = _
  rw [subf_apply, spread_apply, rowmax_apply]

/-- The softmax weights. -/
def weightsOf (s : FVec Ideal S32x128x128 .f32) : FVec Ideal S32x128x128 .bf16 :=
  truncf .bf16 (divf (expsOf s) (broadcastTo S32x128x128 (shapeCast S32x128x1
    (multiReduction .add [2] S32x128 (expsOf s) 0x00000000#32 reduces_S32x128x128_S32x128 (.inl rfl) rfl)
    shapeCasts_S32x128_S32x128x1) broadcasts_S32x128x1_S32x128x128)) bitsLt_bf16_f32

theorem weightsOf_apply (s : FVec Ideal S32x128x128 .f32) (w : Fin 32) (r j : Fin 128) :
    weightsOf s (ix3 w r j) = softmaxWeight (fun j' => s (ix3 w r j')) j := by
  unfold weightsOf softmaxWeight
  rw [truncf_apply, divf_apply, spread_apply, rowsum_apply, expsOf_apply]
  exact congrArg (Ideal.div _) (Finset.sum_congr rfl fun j' _ => expsOf_apply s w r j')

/-- The weighted values, with the unit axis put back. -/
def outOf (p : FVec Ideal S32x128x128 .bf16) (v : FVec Ideal S1x32x128x256 .bf16) : FVec Ideal S1x32x128x256 .f32 :=
  shapeCast S1x32x128x256 (matmul dot_S32x128x128_S32x128x256_S32x128x256_2_1_1_2_0_0 none p
      (shapeCast S32x128x256 v shapeCasts_S1x32x128x256_S32x128x256)
      (constant S32x128x256 .f32 0x00000000#32)) shapeCasts_S32x128x256_S1x32x128x256

theorem outOf_apply (p : FVec Ideal S32x128x128 .bf16) (v : FVec Ideal S1x32x128x256 .bf16)
    (z : Fin 1) (w : Fin 32) (r : Fin 128) (c : Fin 256) :
    outOf p v (ix4 z w r c) = ∑ j : Fin 128, p (ix3 w r j) * v (ix4 (0 : Fin 1) w j c) := by
  unfold outOf
  rw [shapeCast_abc_1abc_apply, pv_apply]
  refine Finset.sum_congr rfl fun j _ => ?_
  rw [shapeCast_1abc_abc_apply]

/-- The body's stored slab is these four stages composed. -/
theorem payload_eq (q k v : FVec Ideal S1x32x128x256 .bf16) :
    k3_pay1 (F := Ideal) q k v = outOf (weightsOf (scoresOf q k)) v := rfl

/-- THE STORED ENTRY: one row of attention over the slab's slice. -/
theorem payload_apply (q k v : FVec Ideal S1x32x128x256 .bf16) (z : Fin 1) (w : Fin 32) (r : Fin 128) (c : Fin 256) :
    k3_pay1 (F := Ideal) q k v (ix4 z w r c)
      = rowAttention (fun c' => q (ix4 (0 : Fin 1) w r c')) (fun j c' => k (ix4 (0 : Fin 1) w j c'))
          (fun j => v (ix4 (0 : Fin 1) w j c)) := by
  rw [payload_eq, outOf_apply]
  unfold rowAttention
  refine Finset.sum_congr rfl fun j _ => ?_
  rw [weightsOf_apply]
  have hs : (fun j' => scoresOf q k (ix3 w r j'))
      = rowScores (fun c' => q (ix4 (0 : Fin 1) w r c')) (fun j' c' => k (ix4 (0 : Fin 1) w j' c')) :=
    funext fun j' => scoresOf_apply q k w r j'
  rw [hs]

end Cert.KernelIdeal.AttnBody

end
-- ==== Proof.AttnArray.lean ====
/-
  What the attention region leaves in its output array: attention of its three input arrays.

  The grid is (batch, column quarter): point (b, s) fetches from each of the three inputs the block
  [b, 32·s … 32·s + 31, all positions, all features] and writes back the same block of the output. The body
  computes, for each of its 32 slices and each query position, one row of attention over that slice, so what a
  point writes back is its block of `attention` of the whole arrays; the sixteen blocks tile the output.
-/
import proofs.«118682_j13134009991753_2_alg».proof.Proof.Gen.KernelIdeal.Frame
import proofs.«118682_j13134009991753_2_alg».proof.Proof.Gen.KernelIdeal.Points
import proofs.«118682_j13134009991753_2_alg».proof.Proof.AttnBody
import proofs.«118682_j13134009991753_2_alg».proof.Proof.Spec
import Idealize.ShloMosaic.Lib.Pipeline.Value
import Idealize.ShloMosaic.Lib.ValueIdx

set_option maxRecDepth 16384

noncomputable section

namespace Cert.KernelIdeal.AttnArray

open Cert.KernelIdeal Cert.KernelIdeal.Gen
open Idealize.ShloMosaic Idealize.ShloMosaic.TcCoe Idealize.SL.Sem
open Idealize.ShloMosaic.Pipeline (Dat)
open Idealize.ShloMosaic.ValueIdx Cert.BlockAttention

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- The four index maps over the grid: every window moves with the output's (batch, column quarter), and the
    position and feature block indices are zero. -/
theorem index_facts : ∀ t : Fin cfg3.N,
    win3_0.index t (0 : Fin 4) = win3_3.index t (0 : Fin 4) ∧ win3_0.index t (1 : Fin 4) = win3_3.index t (1 : Fin 4)
    ∧ win3_0.index t (2 : Fin 4) = 0 ∧ win3_0.index t (3 : Fin 4) = 0
    ∧ win3_1.index t (0 : Fin 4) = win3_3.index t (0 : Fin 4) ∧ win3_1.index t (1 : Fin 4) = win3_3.index t (1 : Fin 4)
    ∧ win3_1.index t (2 : Fin 4) = 0 ∧ win3_1.index t (3 : Fin 4) = 0
    ∧ win3_2.index t (0 : Fin 4) = win3_3.index t (0 : Fin 4) ∧ win3_2.index t (1 : Fin 4) = win3_3.index t (1 : Fin 4)
    ∧ win3_2.index t (2 : Fin 4) = 0 ∧ win3_2.index t (3 : Fin 4) = 0
    ∧ win3_3.index t (2 : Fin 4) = 0 ∧ win3_3.index t (3 : Fin 4) = 0 :=
  (by decide +kernel : ∀ t : Fin grid3.N, _)

/-- Every (batch, column quarter) is some point's output block. -/
theorem index_onto : ∀ (q0 : Fin 4) (q1 : Fin 4), ∃ t : Fin cfg3.N, win3_3.index t = ![q0.val, q1.val, 0, 0] :=
  (by decide +kernel : ∀ (q0 : Fin 4) (q1 : Fin 4), ∃ t : Fin grid3.N, win3_3.index t = ![q0.val, q1.val, 0, 0])

/-- What point `t` writes back is its block of attention of the three input arrays. -/
theorem flushed_eq (c : Dev nD) (t : Fin cfg3.N) :
    (dat3 V c).flushed 3 t
      = ((cfg3.win 3).blk t).view.read (Elt Ideal) (attention (V c main_v0) (V c main_v1) (V c main_v2)) := by
  show (cfg3.win 3).cut (grid3.coords t) ((dat3 V c).after 3 t) = _
  rw [after3_3]
  unfold out3_3
  rw [View.canon_unit_zero zero_offsets]
  simp only [View.ld_unit_zero (S := S1x32x128x256) zero_offsets]
  obtain ⟨a0, a1, a2, a3, b0, b1, b2, b3, c0, c1, c2, c3, d2, d3⟩ := index_facts t
  refine funext fun (y : S1x32x128x256.Idx) => ?_
  obtain ⟨z, w, r, f, rfl⟩ : ∃ (z : Fin 1) (w : Fin 32) (r : Fin 128) (f : Fin 256), y = ix4 z w r f :=
    ⟨y 0, y 1, y 2, y 3, eq_ix4 y⟩
  refine (AttnBody.payload_apply _ _ _ z w r f).trans ?_
  have hz : z.val = 0 := by have := z.isLt; omega
  -- the query row, the key rows and the value column, read off the whole arrays
  have hq : (fun f' : Fin 256 => iblk3 V c 0 t (ix4 (0 : Fin 1) w r f'))
      = fun f' => V c main_v0 (ix4 (n0 := 4) (n1 := 128) (n2 := 128) (n3 := 256) ((((cfg3.win 3).blk t).view.emb (ix4 z w r f)) 0) ((((cfg3.win 3).blk t).view.emb (ix4 z w r f)) 1) ((((cfg3.win 3).blk t).view.emb (ix4 z w r f)) 2) f') :=
    funext fun f' => by
      show V c main_v0 (((cfg3.win 0).blk t).view.emb (ix4 (0 : Fin 1) w r f')) = _
      refine congrArg (V c main_v0) (funext fun a => Fin.ext ?_)
      match a with
      | ⟨0, _⟩ => show win3_0.index t (0 : Fin 4) * 1 + 1 * 0 = win3_3.index t (0 : Fin 4) * 1 + 1 * z.val; omega
      | ⟨1, _⟩ => show win3_0.index t (1 : Fin 4) * 32 + 1 * w.val = win3_3.index t (1 : Fin 4) * 32 + 1 * w.val; omega
      | ⟨2, _⟩ => show win3_0.index t (2 : Fin 4) * 128 + 1 * r.val = win3_3.index t (2 : Fin 4) * 128 + 1 * r.val; omega
      | ⟨3, _⟩ => show win3_0.index t (3 : Fin 4) * 256 + 1 * f'.val = f'.val; omega
  have hk : (fun (j : Fin 128) (f' : Fin 256) => iblk3 V c 1 t (ix4 (0 : Fin 1) w j f'))
      = fun j f' => V c main_v1 (ix4 (n0 := 4) (n1 := 128) (n2 := 128) (n3 := 256) ((((cfg3.win 3).blk t).view.emb (ix4 z w r f)) 0) ((((cfg3.win 3).blk t).view.emb (ix4 z w r f)) 1) j f') :=
    funext fun j => funext fun f' => by
      show V c main_v1 (((cfg3.win 1).blk t).view.emb (ix4 (0 : Fin 1) w j f')) = _
      refine congrArg (V c main_v1) (funext fun a => Fin.ext ?_)
      match a with
      | ⟨0, _⟩ => show win3_1.index t (0 : Fin 4) * 1 + 1 * 0 = win3_3.index t (0 : Fin 4) * 1 + 1 * z.val; omega
      | ⟨1, _⟩ => show win3_1.index t (1 : Fin 4) * 32 + 1 * w.val = win3_3.index t (1 : Fin 4) * 32 + 1 * w.val; omega
      | ⟨2, _⟩ => show win3_1.index t (2 : Fin 4) * 128 + 1 * j.val = j.val; omega
      | ⟨3, _⟩ => show win3_1.index t (3 : Fin 4) * 256 + 1 * f'.val = f'.val; omega
  have hv : (fun j : Fin 128 => iblk3 V c 2 t (ix4 (0 : Fin 1) w j f))
      = fun j => V c main_v2 (ix4 (n0 := 4) (n1 := 128) (n2 := 128) (n3 := 256) ((((cfg3.win 3).blk t).view.emb (ix4 z w r f)) 0) ((((cfg3.win 3).blk t).view.emb (ix4 z w r f)) 1) j ((((cfg3.win 3).blk t).view.emb (ix4 z w r f)) 3)) :=
    funext fun j => by
      show V c main_v2 (((cfg3.win 2).blk t).view.emb (ix4 (0 : Fin 1) w j f)) = _
      refine congrArg (V c main_v2) (funext fun a => Fin.ext ?_)
      match a with
      | ⟨0, _⟩ => show win3_2.index t (0 : Fin 4) * 1 + 1 * 0 = win3_3.index t (0 : Fin 4) * 1 + 1 * z.val; omega
      | ⟨1, _⟩ => show win3_2.index t (1 : Fin 4) * 32 + 1 * w.val = win3_3.index t (1 : Fin 4) * 32 + 1 * w.val; omega
      | ⟨2, _⟩ => show win3_2.index t (2 : Fin 4) * 128 + 1 * j.val = j.val; omega
      | ⟨3, _⟩ => show win3_2.index t (3 : Fin 4) * 256 + 1 * f.val = win3_3.index t (3 : Fin 4) * 256 + 1 * f.val; omega
  rw [hq, hk, hv]
  rfl

/-- An index of the output array is in point `t`'s block iff each coordinate is in the block's range. -/
theorem mem_block (t : Fin cfg3.N) (i : S4x128x128x256.Idx) :
    i ∈ ((cfg3.win 3).blk t).view.set ↔ ∀ a : Fin 4, win3_3.index t a * S1x32x128x256.size a ≤ (i a).val
      ∧ (i a).val < win3_3.index t a * S1x32x128x256.size a + S1x32x128x256.size a := by
  show i ∈ ((View.whole main_v3).slice (win3_3.rect t)).set ↔ _
  rw [View.set_slice_whole, Rect.mem_set_unit]
  exact Iff.rfl

/-- The blocks tile the output array: entry (b, w, p, f) is in the block of point (b, w / 32). -/
theorem covered (i : S4x128x128x256.Idx) :
    ∃ t : Fin cfg3.N, (cfg3.win 3).flush t = true ∧ i ∈ ((cfg3.win 3).blk t).view.set := by
  have h0 : (i 0).val < 4 := (i 0).isLt
  have h1 : (i 1).val < 128 := (i 1).isLt
  have h2 : (i 2).val < 128 := (i 2).isLt
  have h3 : (i 3).val < 256 := (i 3).isLt
  obtain ⟨t, ht⟩ := index_onto ⟨(i 0).val, h0⟩ ⟨(i 1).val / 32, by omega⟩
  have q0 : win3_3.index t (0 : Fin 4) = (i 0).val := congrFun ht 0
  have q1 : win3_3.index t (1 : Fin 4) = (i 1).val / 32 := congrFun ht 1
  have q2 : win3_3.index t (2 : Fin 4) = 0 := congrFun ht 2
  have q3 : win3_3.index t (3 : Fin 4) = 0 := congrFun ht 3
  refine ⟨t, flush3_3 t, ?_⟩
  rw [mem_block]
  intro a
  match a with
  | ⟨0, _⟩ => show win3_3.index t (0 : Fin 4) * 1 ≤ (i 0).val ∧ (i 0).val < win3_3.index t (0 : Fin 4) * 1 + 1; omega
  | ⟨1, _⟩ => show win3_3.index t (1 : Fin 4) * 32 ≤ (i 1).val ∧ (i 1).val < win3_3.index t (1 : Fin 4) * 32 + 32; omega
  | ⟨2, _⟩ => show win3_3.index t (2 : Fin 4) * 128 ≤ (i 2).val ∧ (i 2).val < win3_3.index t (2 : Fin 4) * 128 + 128; omega
  | ⟨3, _⟩ => show win3_3.index t (3 : Fin 4) * 256 ≤ (i 3).val ∧ (i 3).val < win3_3.index t (3 : Fin 4) * 256 + 256; omega

/-- THE OUTPUT ARRAY after the region: attention of the three input arrays as the region found them. -/
theorem attended (c : Dev nD) :
    (dat3 V c).arrAt 3 cfg3.N = attention (V c main_v0) (V c main_v1) (V c main_v2) :=
  (dat3 V c).arrAt_eq_of_cover 3 (attention (V c main_v0) (V c main_v1) (V c main_v2))
    (fun t _ => flushed_eq V c t) covered

end Cert.KernelIdeal.AttnArray

end
-- ==== Proof.KernelValue.lean ====
/-
  The idealized kernel's result, as one function of its arguments.

  Walking the fold of @main's segments back from the result buffer: the final reshape reads region 3's output
  array; that array is attention of region 3's three input arrays as it found them; each of those was written by
  one of the re-laying regions and by no later segment, and is that region's argument re-laid; and each argument
  buffer, which no segment writes, still holds its launch contents when its region reads it.
-/
import proofs.«118682_j13134009991753_2_alg».proof.Proof.KernelRun
import proofs.«118682_j13134009991753_2_alg».proof.Proof.RelayQuery
import proofs.«118682_j13134009991753_2_alg».proof.Proof.RelayKey
import proofs.«118682_j13134009991753_2_alg».proof.Proof.RelayValue
import proofs.«118682_j13134009991753_2_alg».proof.Proof.AttnArray
import proofs.«118682_j13134009991753_2_alg».proof.Proof.Spec
import Idealize.ShloMosaic.Lib.StableHlo.Run

set_option maxRecDepth 16384

noncomputable section

namespace Cert.KernelIdeal.AttnValue

open Cert.KernelIdeal Cert.KernelIdeal.Gen
open Idealize.ShloMosaic Idealize.ShloMosaic.TcCoe Idealize.SL.Sem Idealize.ShloMosaic.StableHlo
open Cert.BlockAttention

variable (m : (ℓ : Loc nD τ sig) → Buf (Elt Ideal) ℓ) (ρ : Dev nD → PrngReg)

/-- The query array as the attention region finds it: written by region 0, untouched by regions 1 and 2. -/
theorem query_found (c : Dev nD) : V3 m ρ c main_v0 = permute (m ((c : Thread nD τ).loc main_arg0)) :=
  calc W3 m ρ c (Proc.devRef .tc main_v0)
    _ = W2 m ρ c (Proc.devRef .tc main_v0) := W3_of_ne m ρ c main_v0 (by decide)
    _ = W1 m ρ c (Proc.devRef .tc main_v0) := W2_of_ne m ρ c main_v0 (by decide)
    _ = (dat0 (V0 m ρ) c).arrAt 1 cfg0.N := W1_arr m ρ c 1
    _ = permute (V0 m ρ c main_arg0) := Relay0.relaid (V0 m ρ) c
    _ = permute (m ((c : Thread nD τ).loc main_arg0)) := rfl

/-- The key array as the attention region finds it: written by region 1 from the second argument, which region 0
    left alone. -/
theorem key_found (c : Dev nD) : V3 m ρ c main_v1 = permute (m ((c : Thread nD τ).loc main_arg1)) :=
  calc W3 m ρ c (Proc.devRef .tc main_v1)
    _ = W2 m ρ c (Proc.devRef .tc main_v1) := W3_of_ne m ρ c main_v1 (by decide)
    _ = (dat1 (V1 m ρ) c).arrAt 1 cfg1.N := W2_arr m ρ c 1
    _ = permute (V1 m ρ c main_arg1) := Relay1.relaid (V1 m ρ) c
    _ = permute (W0 m ρ c (Proc.devRef .tc main_arg1)) := congrArg permute (W1_of_ne m ρ c main_arg1 (by decide))
    _ = permute (m ((c : Thread nD τ).loc main_arg1)) := rfl

/-- The value array as the attention region finds it: written by region 2 from the third argument, which regions
    0 and 1 left alone. -/
theorem value_found (c : Dev nD) : V3 m ρ c main_v2 = permute (m ((c : Thread nD τ).loc main_arg2)) :=
  calc W3 m ρ c (Proc.devRef .tc main_v2)
    _ = (dat2 (V2 m ρ) c).arrAt 1 cfg2.N := W3_arr m ρ c 1
    _ = permute (V2 m ρ c main_arg2) := Relay2.relaid (V2 m ρ) c
    _ = permute (W1 m ρ c (Proc.devRef .tc main_arg2)) := congrArg permute (W2_of_ne m ρ c main_arg2 (by decide))
    _ = permute (W0 m ρ c (Proc.devRef .tc main_arg2)) := congrArg permute (W1_of_ne m ρ c main_arg2 (by decide))
    _ = permute (m ((c : Thread nD τ).loc main_arg2)) := rfl

/-- The attention region's output array: attention of the three re-laid arguments. -/
theorem attended_found (c : Dev nD) :
    W4 m ρ c (Proc.devRef .tc main_v3)
      = attention (permute (m ((c : Thread nD τ).loc main_arg0))) (permute (m ((c : Thread nD τ).loc main_arg1)))
          (permute (m ((c : Thread nD τ).loc main_arg2))) :=
  calc W4 m ρ c (Proc.devRef .tc main_v3)
    _ = (dat3 (V3 m ρ) c).arrAt 3 cfg3.N := W4_arr m ρ c 3
    _ = attention (V3 m ρ c main_v0) (V3 m ρ c main_v1) (V3 m ρ c main_v2) := AttnArray.attended (V3 m ρ) c
    _ = _ := by rw [query_found, key_found, value_found]

/-- The result buffer after the last segment: the attention array read through the final reshape. -/
theorem result_found (c : Dev nD) :
    W5 m ρ c (Proc.devRef .tc main_v4)
      = shapeCast _ (attention (permute (m ((c : Thread nD τ).loc main_arg0))) (permute (m ((c : Thread nD τ).loc main_arg1)))
          (permute (m ((c : Thread nD τ).loc main_arg2)))) shapeCasts_S4x128x128x256_S4x256x128x128 := by
  have hlast : W5 m ρ c (Proc.devRef .tc main_v4)
      = shapeCast _ (W4 m ρ c (Proc.devRef .tc main_v3)) shapeCasts_S4x128x128x256_S4x256x128x128 := by
    show StableHlo.after hostOps4 (W4 m ρ c) (Proc.devRef .tc main_v4) = _
    after_results
    rfl
  rw [hlast, attended_found]

/-- THE RUN, READ: every weakly fair execution of the idealized kernel terminates without a fault, its result
    buffer holding attention of the re-laid arguments read through the final reshape, its arguments unchanged. -/
theorem run : θ_run defs (onTc (τ := τ) (main (F := Ideal))) ⟨m, fun _ => 0, ρ⟩ (fun r => ∀ c : Dev nD,
      r.2.mem ((c.tc : Thread nD τ).loc main_v4)
        = shapeCast _ (attention (permute (m ((c : Thread nD τ).loc main_arg0))) (permute (m ((c : Thread nD τ).loc main_arg1)))
            (permute (m ((c : Thread nD τ).loc main_arg2)))) shapeCasts_S4x128x128x256_S4x256x128x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_found m ρ c), (h c).2⟩) (AttnRun.run_fold m ρ)

end Cert.KernelIdeal.AttnValue

end
-- ==== Proof.ReferenceValue.lean ====
/-
  The reference's array before its final reshape is block-diagonal attention of the re-laid arguments.

  Read one operation at a time: the three transposes are the re-laying; the first dot_general and the division
  by 16 give a query's scores (dividing by 16 is multiplying by 2⁻⁴); the max-reduce from −∞, joined once more
  with −∞, is the row maximum; exp of the shifted scores, their sum from 0, and the quotient are the softmax
  weights; the second dot_general sums weight times value over the key positions.
-/
import proofs.«118682_j13134009991753_2_alg».proof.Proof.Gen.ReferenceIdeal.Read
import proofs.«118682_j13134009991753_2_alg».proof.Proof.Spec
import Idealize.ShloMosaic.PureOps.Reduce

noncomputable section

open scoped BigOperators

namespace Cert.ReferenceIdeal.AttnValue

open Cert.ReferenceIdeal Cert.ReferenceIdeal.Gen Cert.ReferenceIdeal.Read
open Idealize.ShloMosaic Idealize.ShloMosaic.ValueIdx Cert.BlockAttention

variable (x0 x1 x2 : (⟨S4x256x128x128, .f32⟩ : BufTy).Contents (Elt Ideal))

/-- The reduction over the key axis, as the library's inserted-coordinate form needs it. -/
theorem keyAxis : S4x128x128x128.Reduces [3] S4x128x128 := by decide

theorem keyAxis_lift (b : Fin 4) (w p j : Fin 128) : keyAxis.lift (ix3 b w p) j = ix4 b w p j :=
  funext fun a => Fin.ext (by match a with | ⟨0, _⟩ => rfl | ⟨1, _⟩ => rfl | ⟨2, _⟩ => rfl | ⟨3, _⟩ => rfl)

/-- A query's scores against the keys. -/
theorem scores_eq (b : Fin 4) (w p j : Fin 128) :
    val_main_v5 (F := Ideal) x0 x1 (ix4 b w p j)
      = rowScores (fun c => permute x0 (ix4 b w p c)) (fun j' c => permute x1 (ix4 b w j' c)) j := by
  rw [val_main_v5_apply, val_main_v3_apply, val_main_v4_apply, val_main_cst_apply]
  simp only [Ideal.hostDivf_def, Ideal.ofBits_def]
  rw [div_sixteen]
  unfold rowScores
  refine congrArg (· * invScale) (Finset.sum_congr rfl fun c _ => ?_)
  rw [val_main_v0_apply, val_main_v1_apply]
  show _ = permute x0 (ix4 b w p c) * permute x1 (ix4 b w j c)
  rw [permute_apply, permute_apply]
  have e0 : idx_main_v0 (lidx_main_v3 (ix4 b w p j) c) = ix4 b c p w := funext fun a => Fin.ext (by match a with | ⟨0, _⟩ => rfl | ⟨1, _⟩ => rfl | ⟨2, _⟩ => rfl | ⟨3, _⟩ => rfl)
  have e1 : idx_main_v1 (ridx_main_v3 (ix4 b w p j) c) = ix4 b c j w := funext fun a => Fin.ext (by match a with | ⟨0, _⟩ => rfl | ⟨1, _⟩ => rfl | ⟨2, _⟩ => rfl | ⟨3, _⟩ => rfl)
  rw [e0, e1]

/-- The row maximum the reference subtracts. -/
theorem rowmax_eq (b : Fin 4) (w p : Fin 128) :
    val_main_v8 (F := Ideal) x0 x1 (ix3 b w p)
      = rowMax (fun j => val_main_v5 (F := Ideal) x0 x1 (ix4 b w p j)) := by
  rw [val_main_v8_apply, val_main_v7_apply, val_main_cst_1_apply]
  unfold val_main_v6
  rw [Host.reduce_eq_fold_single FloatOps.maximumf _ _ reducesTo_S4x128x128x128_S4x128x128_d3 keyAxis h_S_ (ix3 b w p)]
  have hrow : (val_main_v5 (F := Ideal) x0 x1 ∘ keyAxis.lift (ix3 b w p)) = fun j : Fin 128 => val_main_v5 (F := Ideal) x0 x1 (ix4 b w p j) :=
    funext fun j => congrArg (val_main_v5 (F := Ideal) x0 x1) (keyAxis_lift b w p j)
  rw [hrow]
  exact max_negInf _

/-- The shifted, exponentiated scores. -/
theorem exps_eq (b : Fin 4) (w p j : Fin 128) :
    val_main_v12 (F := Ideal) x0 x1 (ix4 b w p j)
      = Ideal.exp (val_main_v5 (F := Ideal) x0 x1 (ix4 b w p j) - rowMax (fun j' => val_main_v5 (F := Ideal) x0 x1 (ix4 b w p j'))) := by
  rw [val_main_v12_apply, val_main_v11_apply, val_main_v10_apply, val_main_v9_apply]
  have e : idx_main_v9 (idx_main_v10 (ix4 b w p j)) = ix3 b w p := funext fun a => Fin.ext (by match a with | ⟨0, _⟩ => rfl | ⟨1, _⟩ => rfl | ⟨2, _⟩ => rfl)
  rw [e, rowmax_eq]
  rfl

/-- Their sum over the keys. -/
theorem expsum_eq (b : Fin 4) (w p : Fin 128) :
    val_main_v13 (F := Ideal) x0 x1 (ix3 b w p) = ∑ j : Fin 128, val_main_v12 (F := Ideal) x0 x1 (ix4 b w p j) := by
  rw [val_main_v13_apply, val_main_cst_2_apply]
  simp only [Ideal.ofBits_def, Ideal.ofBits_zero_f32, zero_add]
  refine Finset.sum_congr rfl fun j _ => ?_
  exact congrArg (val_main_v12 (F := Ideal) x0 x1) (funext fun a => Fin.ext (by match a with | ⟨0, _⟩ => rfl | ⟨1, _⟩ => rfl | ⟨2, _⟩ => rfl | ⟨3, _⟩ => rfl))

/-- The softmax weights. -/
theorem weights_eq (b : Fin 4) (w p j : Fin 128) :
    val_main_v16 (F := Ideal) x0 x1 (ix4 b w p j)
      = softmaxWeight (fun j' => val_main_v5 (F := Ideal) x0 x1 (ix4 b w p j')) j := by
  rw [val_main_v16_apply, val_main_v15_apply, val_main_v14_apply]
  have e : idx_main_v14 (idx_main_v15 (ix4 b w p j)) = ix3 b w p := funext fun a => Fin.ext (by match a with | ⟨0, _⟩ => rfl | ⟨1, _⟩ => rfl | ⟨2, _⟩ => rfl)
  rw [e, expsum_eq, exps_eq]
  simp only [Ideal.hostDivf_def]
  unfold softmaxWeight
  refine congrArg (Ideal.div _) (Finset.sum_congr rfl fun j' _ => ?_)
  exact exps_eq x0 x1 b w p j'

/-- The reference's array before the final reshape is attention of the re-laid arguments. -/
theorem attention_eq : val_main_v17 (F := Ideal) x0 x1 x2 = attention (permute x0) (permute x1) (permute x2) := by
  funext i
  obtain ⟨b, w, p, c, rfl⟩ : ∃ (b : Fin 4) (w p : Fin 128) (c : Fin 256), i = ix4 b w p c := ⟨i 0, i 1, i 2, i 3, eq_ix4 i⟩
  rw [val_main_v17_apply, attention_apply]
  unfold rowAttention
  refine Finset.sum_congr rfl fun j _ => ?_
  have el : lidx_main_v17 (ix4 b w p c) j = ix4 b w p j := funext fun a => Fin.ext (by match a with | ⟨0, _⟩ => rfl | ⟨1, _⟩ => rfl | ⟨2, _⟩ => rfl | ⟨3, _⟩ => rfl)
  have er : idx_main_v2 (ridx_main_v17 (ix4 b w p c) j) = ix4 b c j w := funext fun a => Fin.ext (by match a with | ⟨0, _⟩ => rfl | ⟨1, _⟩ => rfl | ⟨2, _⟩ => rfl | ⟨3, _⟩ => rfl)
  rw [el, weights_eq, val_main_v2_apply, er]
  show _ = _ * permute x2 (ix4 b w j c)
  rw [permute_apply]
  have hs : (fun j' => val_main_v5 (F := Ideal) x0 x1 (ix4 b w p j'))
      = rowScores (fun c' => permute x0 (ix4 b w p c')) (fun j' c' => permute x1 (ix4 b w j' c')) :=
    funext fun j' => scores_eq x0 x1 b w p j'
  rw [hs]

end Cert.ReferenceIdeal.AttnValue

end
-- ==== Proof.lean ====
/-
  Block-diagonal attention: a pipelined kernel against its whole-array reference, equal over the extended reals.

  Both programs re-lay the three arguments from (batch, feature, position, column) to (batch, column, position,
  feature), run softmax attention per (batch, column) slice over the positions with the 256 features contracted,
  and return the (batch, column, position, feature) result through one flat reshape.

  The kernel does the re-laying in three pipelined regions (one slab of 128 features per grid point, its inner
  axes reversed) and the attention in a fourth (32 slices per grid point); the reference does each step as one
  whole-array operation. Read at the exact instance the two agree entry by entry:
    * a format change to bf16 and back is the identity;
    * a matrix product into a zero accumulator and a host dot_general are the same sum of products;
    * the kernel scales the scores by 2⁻⁴ and the reference divides them by 16 = √256: the same extended real,
      for every extended real;
    * both take the row maximum as a fold of max from −∞ (the reference joins −∞ once more, which changes
      nothing), subtract it, exponentiate, and divide by the row's sum.
  No step uses distributivity or cancellation, so the finiteness precondition is never opened.

  The frames are the generated ones; the idealization rewrote no operation, so that claim is trivial.
-/
import proofs.«118682_j13134009991753_2_alg».proof.Defs
import proofs.«118682_j13134009991753_2_alg».proof.Proof.Gen.Kernel
import proofs.«118682_j13134009991753_2_alg».proof.Proof.Gen.Kernel.Frame
import proofs.«118682_j13134009991753_2_alg».proof.Proof.Gen.KernelIdeal
import proofs.«118682_j13134009991753_2_alg».proof.Proof.Gen.KernelIdeal.Frame
import proofs.«118682_j13134009991753_2_alg».proof.Proof.Gen.ReferenceIdeal
import proofs.«118682_j13134009991753_2_alg».proof.Proof.Gen.Pre_finite_inputs
import proofs.«118682_j13134009991753_2_alg».proof.Proof.Gen.ReferenceIdeal.Run
import proofs.«118682_j13134009991753_2_alg».proof.Proof.Gen.ReferenceIdeal.Read
import proofs.«118682_j13134009991753_2_alg».proof.Proof.KernelValue
import proofs.«118682_j13134009991753_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with attention of the re-laid arguments read through the same final reshape. -/
theorem algebraic : Cert.algebraic_KernelIdeal_ReferenceIdeal := by
  intro m ρ m' ρ' _ hagree
  refine ⟨_, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq (F := Ideal) _ _ _).trans ?_
  unfold Cert.ReferenceIdeal.Read.val_main_v18
  rw [Cert.ReferenceIdeal.AttnValue.attention_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
